-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x14x48x256x256 : Shape := ⟨5, ![2, 14, 48, 256, 256]⟩
abbrev S2x48x256x256 : Shape := ⟨4, ![2, 48, 256, 256]⟩
abbrev S_ : Shape := ⟨0, ![]⟩

class Facts : Prop where
  bcast_S_S2x14x48x256x256 : S_.BroadcastsInDim S2x14x48x256x256 (![] : Fin 0 → Fin S2x14x48x256x256.rank)
  reducesTo_S2x14x48x256x256_S_d0_1_2_3_4 : S2x14x48x256x256.ReducesTo [0, 1, 2, 3, 4] S_
  h_S_ : 0 < S_.numel

variable [Facts]

def fn {F : FTy → Type} [FloatOps F] (main_arg0 : FVec F S2x14x48x256x256 .f32) (main_arg1 : FVec F S2x14x48x256x256 .f32) (main_arg2 : IVec S2x48x256x256 32) : IVec S_ 1 :=
  let main_v0 : FVec F S2x14x48x256x256 .f32 := Host.absf main_arg0
  let main_cst : FVec F S_ .f32 := constant S_ .f32 0x7F800000#32
  let main_v1 : FVec F S2x14x48x256x256 .f32 := broadcastInDim S2x14x48x256x256 ![] bcast_S_S2x14x48x256x256 main_cst
  let main_v2 : IVec S2x14x48x256x256 1 := cmpf .olt main_v0 main_v1
  let main_c : IVec S_ 1 := constantI S_ 1 1#1
  let main_v3 : IVec S_ 1 := (fun x v => Host.reduce IntOp.andi x v reducesTo_S2x14x48x256x256_S_d0_1_2_3_4 h_S_) main_v2 main_c
  let main_v4 : FVec F S2x14x48x256x256 .f32 := Host.absf main_arg1
  let main_cst_0 : FVec F S_ .f32 := constant S_ .f32 0x7F800000#32
  let main_v5 : FVec F S2x14x48x256x256 .f32 := broadcastInDim S2x14x48x256x256 ![] bcast_S_S2x14x48x256x256 main_cst_0
  let main_v6 : IVec S2x14x48x256x256 1 := cmpf .olt main_v4 main_v5
  let main_c_1 : IVec S_ 1 := constantI S_ 1 1#1
  let main_v7 : IVec S_ 1 := (fun x v => Host.reduce IntOp.andi x v reducesTo_S2x14x48x256x256_S_d0_1_2_3_4 h_S_) main_v6 main_c_1
  let main_v8 : IVec S_ 1 := andi main_v3 main_v7
  main_v8
-- ==== Kernel.lean ====
abbrev S2x14x48x256x256 : Shape := ⟨5, ![2, 14, 48, 256, 256]⟩
abbrev S2x48x256x256 : Shape := ⟨4, ![2, 48, 256, 256]⟩
abbrev S2x2x13 : Shape := ⟨3, ![2, 2, 13]⟩
abbrev S2x14x1x256x256 : Shape := ⟨5, ![2, 14, 1, 256, 256]⟩
abbrev S2x1x256x256 : Shape := ⟨4, ![2, 1, 256, 256]⟩
abbrev S1x2x13 : Shape := ⟨3, ![1, 2, 13]⟩
abbrev S2x13x256 : Shape := ⟨3, ![2, 13, 256]⟩
abbrev S2x13x1x256x256 : Shape := ⟨5, ![2, 13, 1, 256, 256]⟩
abbrev S2x13x256x256 : Shape := ⟨4, ![2, 13, 256, 256]⟩
abbrev S2x256x256 : Shape := ⟨3, ![2, 256, 256]⟩
abbrev S1x13x1x1 : Shape := ⟨4, ![1, 13, 1, 1]⟩
abbrev S2x13 : Shape := ⟨2, ![2, 13]⟩
abbrev S_ : Shape := ⟨0, ![]⟩
abbrev S2 : Shape := ⟨1, ![2]⟩

abbrev nBuf : Space → Nat
  | .hbm => 52
  | .vmem => 21
  | .smem => 0
  | _ => 0

abbrev bufTy : (tb : Table) → Fin (tcTables nBuf tb) → BufTy
  | .hbm, ⟨0, _⟩ => ⟨S2x14x48x256x256, .f32⟩
  | .hbm, ⟨1, _⟩ => ⟨S2x14x48x256x256, .f32⟩
  | .hbm, ⟨2, _⟩ => ⟨S2x48x256x256, .i32⟩
  | .hbm, ⟨3, _⟩ => ⟨S2x2x13, .f32⟩
  | .hbm, ⟨4, _⟩ => ⟨S2x2x13, .f32⟩
  | .hbm, ⟨5, _⟩ => ⟨S2x2x13, .f32⟩
  | .hbm, ⟨6, _⟩ => ⟨S2x2x13, .f32⟩
  | .hbm, ⟨7, _⟩ => ⟨S2x2x13, .f32⟩
  | .hbm, ⟨8, _⟩ => ⟨S_, .f32⟩
  | .hbm, ⟨9, _⟩ => ⟨S2x13, .f32⟩
  | .hbm, ⟨10, _⟩ => ⟨S_, .f32⟩
  | .hbm, ⟨11, _⟩ => ⟨S2x13, .f32⟩
  | .hbm, ⟨12, _⟩ => ⟨S_, .f32⟩
  | .hbm, ⟨13, _⟩ => ⟨S2x13, .f32⟩
  | .hbm, ⟨14, _⟩ => ⟨S_, .f32⟩
  | .hbm, ⟨15, _⟩ => ⟨S2x13, .f32⟩
  | .hbm, ⟨16, _⟩ => ⟨S_, .f32⟩
  | .hbm, ⟨17, _⟩ => ⟨S2x13, .f32⟩
  | .hbm, ⟨18, _⟩ => ⟨S_, .f32⟩
  | .hbm, ⟨19, _⟩ => ⟨S2x13, .f32⟩
  | .hbm, ⟨20, _⟩ => ⟨S2x13, .f32⟩
  | .hbm, ⟨21, _⟩ => ⟨S2x13, .f32⟩
  | .hbm, ⟨22, _⟩ => ⟨S_, .f32⟩
  | .hbm, ⟨23, _⟩ => ⟨S2x13, .f32⟩
  | .hbm, ⟨24, _⟩ => ⟨S2x13, .f32⟩
  | .hbm, ⟨25, _⟩ => ⟨S2x13, .f32⟩
  | .hbm, ⟨26, _⟩ => ⟨S_, .f32⟩
  | .hbm, ⟨27, _⟩ => ⟨S2x13, .f32⟩
  | .hbm, ⟨28, _⟩ => ⟨S2x13, .f32⟩
  | .hbm, ⟨29, _⟩ => ⟨S2x13, .f32⟩
  | .hbm, ⟨30, _⟩ => ⟨S_, .f32⟩
  | .hbm, ⟨31, _⟩ => ⟨S2x13, .f32⟩
  | .hbm, ⟨32, _⟩ => ⟨S2x13, .f32⟩
  | .hbm, ⟨33, _⟩ => ⟨S2x13, .f32⟩
  | .hbm, ⟨34, _⟩ => ⟨S_, .f32⟩
  | .hbm, ⟨35, _⟩ => ⟨S2, .f32⟩
  | .hbm, ⟨36, _⟩ => ⟨S_, .f32⟩
  | .hbm, ⟨37, _⟩ => ⟨S2, .f32⟩
  | .hbm, ⟨38, _⟩ => ⟨S2, .f32⟩
  | .hbm, ⟨39, _⟩ => ⟨S_, .f32⟩
  | .hbm, ⟨40, _⟩ => ⟨S2, .f32⟩
  | .hbm, ⟨41, _⟩ => ⟨S_, .f32⟩
  | .hbm, ⟨42, _⟩ => ⟨S2, .f32⟩
  | .hbm, ⟨43, _⟩ => ⟨S2, .f32⟩
  | .hbm, ⟨44, _⟩ => ⟨S2, .f32⟩
  | .hbm, ⟨45, _⟩ => ⟨S_, .f32⟩
  | .hbm, ⟨46, _⟩ => ⟨S2, .f32⟩
  | .hbm, ⟨47, _⟩ => ⟨S2, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S2x14x1x256x256, .f32⟩
  | .local _ .vmem, ⟨1, _⟩ => ⟨S2x14x1x256x256, .f32⟩
  | .local _ .vmem, ⟨2, _⟩ => ⟨S2x14x1x256x256, .f32⟩
  | .local _ .vmem, ⟨3, _⟩ => ⟨S2x14x1x256x256, .f32⟩
  | .local _ .vmem, ⟨4, _⟩ => ⟨S2x1x256x256, .i32⟩
  | .local _ .vmem, ⟨5, _⟩ => ⟨S2x1x256x256, .i32⟩
  | .local _ .vmem, ⟨6, _⟩ => ⟨S1x2x13, .f32⟩
  | .local _ .vmem, ⟨7, _⟩ => ⟨S1x2x13, .f32⟩
  | .local _ .vmem, ⟨8, _⟩ => ⟨S1x2x13, .f32⟩
  | .local _ .vmem, ⟨9, _⟩ => ⟨S1x2x13, .f32⟩
  | .local _ .vmem, ⟨10, _⟩ => ⟨S1x2x13, .f32⟩
  | .local _ .vmem, ⟨11, _⟩ => ⟨S1x2x13, .f32⟩
  | .local _ .vmem, ⟨12, _⟩ => ⟨S1x2x13, .f32⟩
  | .local _ .vmem, ⟨13, _⟩ => ⟨S1x2x13, .f32⟩
  | .local _ .vmem, ⟨14, _⟩ => ⟨S1x2x13, .f32⟩
  | .local _ .vmem, ⟨15, _⟩ => ⟨S1x2x13, .f32⟩
  | .local _ .vmem, ⟨16, _⟩ => ⟨S2x13x256, .f32⟩
  | .local _ .vmem, ⟨17, _⟩ => ⟨S2x13x256, .f32⟩
  | .local _ .vmem, ⟨18, _⟩ => ⟨S2x13x256, .f32⟩
  | .local _ .vmem, ⟨19, _⟩ => ⟨S2x13x256, .f32⟩
  | .local _ .vmem, ⟨20, _⟩ => ⟨S2x13x256, .f32⟩
  | _, _ => ⟨S2x14x48x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_cst_2 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_cst_4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_5 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_6 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_7 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_cst_11 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_12 : Ref sig .tc := ⟨.hbm, 45, rfl⟩
abbrev main_v25 : Ref sig .tc := ⟨.hbm, 46, rfl⟩
abbrev main_v26 : Ref sig .tc := ⟨.hbm, 47, rfl⟩
abbrev main_cst_13 : Ref sig .tc := ⟨.hbm, 48, rfl⟩
abbrev main_v27 : Ref sig .tc := ⟨.hbm, 49, rfl⟩
abbrev main_cst_14 : Ref sig .tc := ⟨.hbm, 50, rfl⟩
abbrev main_v28 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 24], ![false, false]⟩

def k0_cond2 (i : grid0.Coords) : BitVec 1 :=
  let arg1 : BitVec 32 := BitVec.ofNat 32 (i 1).val
  let c23_i32 : BitVec 32 := 23#32
  let v52 : BitVec 1 := Scalar.cmpi .eq arg1 c23_i32
  let v53 : BitVec 32 := Scalar.extui v52
  let c0_i32_47 : BitVec 32 := 0#32
  let v54 : BitVec 1 := Scalar.cmpi .ne v53 c0_i32_47
  v54

def cc0_transform_0 (i : grid0.Coords) : Fin 5 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_2 (i : grid0.Coords) : Fin 4 → Nat :=
  let arg0 : BitVec 32 := BitVec.ofNat 32 (i 0).val
  let arg1 : BitVec 32 := BitVec.ofNat 32 (i 1).val
  let c24_i32 : BitVec 32 := 24#32
  let v0 : BitVec 32 := Scalar.muli arg0 c24_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x14x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x14x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x13 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x13 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x13 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2x13 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x13 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  inb_S2x13x256_S2x13x256_0_0_0 : ∀ a, (![0, 0, 0] : Fin 3 → Nat) a + S2x13x256.size a ≤ S2x13x256.size a
  h_S2x13x256 : 0 < S2x13x256.numel
  shapeCasts_S2x13x256_S2x13x256 : S2x13x256.ShapeCasts S2x13x256
  inb_S2x14x1x256x256_S2x13x1x256x256_0_1_0_0_0 : ∀ a, (![0, 1, 0, 0, 0] : Fin 5 → Nat) a + S2x13x1x256x256.size a ≤ S2x14x1x256x256.size a
  h_S2x13x1x256x256 : 0 < S2x13x1x256x256.numel
  shapeCasts_S2x13x1x256x256_S2x13x256x256 : S2x13x1x256x256.ShapeCasts S2x13x256x256
  inb_S2x1x256x256_S2x1x256x256_0_0_0_0 : ∀ a, (![0, 0, 0, 0] : Fin 4 → Nat) a + S2x1x256x256.size a ≤ S2x1x256x256.size a
  h_S2x1x256x256 : 0 < S2x1x256x256.numel
  shapeCasts_S2x1x256x256_S2x256x256 : S2x1x256x256.ShapeCasts S2x256x256
  iota_S1x13x1x1_d1_w32 : S1x13x1x1.Iotas .tc 32 [1]
  shapeCasts_S2x256x256_S2x1x256x256 : S2x256x256.ShapeCasts S2x1x256x256
  broadcasts_S2x1x256x256_S2x13x256x256 : S2x1x256x256.Broadcasts S2x13x256x256
  broadcasts_S1x13x1x1_S2x13x256x256 : S1x13x1x1.Broadcasts S2x13x256x256
  natLt_1_32 : 1 < 32
  reduces_S2x13x256x256_S2x13x256 : S2x13x256x256.Reduces [2] S2x13x256
  reduces_S2x13x256_S2x13 : S2x13x256.Reduces [2] S2x13
  inb_S1x2x13_S1x2x13_0_0_0 : ∀ a, (![0, 0, 0] : Fin 3 → Nat) a + S1x2x13.size a ≤ S1x2x13.size a
  h_S1x2x13 : 0 < S1x2x13.numel
  shapeCasts_S1x2x13_S2x13 : S1x2x13.ShapeCasts S2x13
  shapeCasts_S2x13_S1x2x13 : S2x13.ShapeCasts S1x2x13
  reducesTo_S2x2x13_S2x13_d0 : S2x2x13.ReducesTo [0] S2x13
  h_S_ : 0 < S_.numel
  bcast_S_S2x13 : S_.BroadcastsInDim S2x13 (![] : Fin 0 → Fin S2x13.rank)
  reducesTo_S2x13_S2_d1 : S2x13.ReducesTo [1] S2
  bcast_S_S2 : S_.BroadcastsInDim S2 (![] : Fin 0 → Fin S2.rank)
  reducesTo_S2_S_d0 : S2.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x14x1x256x256.size a ≤ S2x14x48x256x256.size a
  hwx0_0 : ∀ i : grid0.Coords, EltTy.bits .f32 = 32 ∨ (Rect.block (s := S2x14x48x256x256) S2x14x1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x14x1x256x256.size a ≤ S2x14x48x256x256.size a
  hwx0_1 : ∀ i : grid0.Coords, EltTy.bits .f32 = 32 ∨ (Rect.block (s := S2x14x48x256x256) S2x14x1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1x256x256.size a ≤ S2x48x256x256.size a
  hwx0_2 : ∀ i : grid0.Coords, EltTy.bits .i32 = 32 ∨ (Rect.block (s := S2x48x256x256) S2x1x256x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x13.size a ≤ S2x2x13.size a
  hwx0_3 : ∀ i : grid0.Coords, EltTy.bits .f32 = 32 ∨ (Rect.block (s := S2x2x13) S1x2x13.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x13.size a ≤ S2x2x13.size a
  hwx0_4 : ∀ i : grid0.Coords, EltTy.bits .f32 = 32 ∨ (Rect.block (s := S2x2x13) S1x2x13.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x13.size a ≤ S2x2x13.size a
  hwx0_5 : ∀ i : grid0.Coords, EltTy.bits .f32 = 32 ∨ (Rect.block (s := S2x2x13) S1x2x13.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x2x13.size a ≤ S2x2x13.size a
  hwx0_6 : ∀ i : grid0.Coords, EltTy.bits .f32 = 32 ∨ (Rect.block (s := S2x2x13) S1x2x13.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2x13.size a ≤ S2x2x13.size a
  hwx0_7 : ∀ i : grid0.Coords, EltTy.bits .f32 = 32 ∨ (Rect.block (s := S2x2x13) S1x2x13.size (cc0_transform_7 i) (hinb0_7 i)).WholeWords (EltTy.packing .f32)

variable [Facts₀]

abbrev win0_0 : Pipeline.Window sig grid0 :=
  Pipeline.Window.ofSpec (Memref.whole main_arg0) S2x14x1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x14x1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x1x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x2x13.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x2x13.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x2x13.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x2x13.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x2x13.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | 6 => fun i => !(k0_cond2 i == 1#1) | 7 => fun i => !(k0_cond2 i == 1#1) | ⟨_ + 8, h⟩ => absurd h (Nat.not_lt.2 (Nat.le_add_left _ _))

class Facts : Prop extends Facts₀ where

variable [Facts]
-- ==== ReferenceIdeal.lean ====
abbrev S2x14x48x256x256 : Shape := ⟨5, ![2, 14, 48, 256, 256]⟩
abbrev S2x48x256x256 : Shape := ⟨4, ![2, 48, 256, 256]⟩
abbrev S13 : Shape := ⟨1, ![13]⟩
abbrev S_ : Shape := ⟨0, ![]⟩
abbrev S2x1x48x256x256 : Shape := ⟨5, ![2, 1, 48, 256, 256]⟩
abbrev S1x13x1x1x1 : Shape := ⟨5, ![1, 13, 1, 1, 1]⟩
abbrev S2x13x48x256x256 : Shape := ⟨5, ![2, 13, 48, 256, 256]⟩
abbrev S2x13 : Shape := ⟨2, ![2, 13]⟩
abbrev S2 : Shape := ⟨1, ![2]⟩

abbrev nBuf : Space → Nat
  | .hbm => 65
  | .vmem => 0
  | .smem => 0
  | _ => 0

abbrev bufTy : (tb : Table) → Fin (tcTables nBuf tb) → BufTy
  | .hbm, ⟨0, _⟩ => ⟨S2x14x48x256x256, .f32⟩
  | .hbm, ⟨1, _⟩ => ⟨S2x14x48x256x256, .f32⟩
  | .hbm, ⟨2, _⟩ => ⟨S2x48x256x256, .i32⟩
  | .hbm, ⟨3, _⟩ => ⟨S13, .i32⟩
  | .hbm, ⟨4, _⟩ => ⟨S_, .i32⟩
  | .hbm, ⟨5, _⟩ => ⟨S13, .i32⟩
  | .hbm, ⟨6, _⟩ => ⟨S13, .i32⟩
  | .hbm, ⟨7, _⟩ => ⟨S2x1x48x256x256, .i32⟩
  | .hbm, ⟨8, _⟩ => ⟨S1x13x1x1x1, .i32⟩
  | .hbm, ⟨9, _⟩ => ⟨S2x13x48x256x256, .i32⟩
  | .hbm, ⟨10, _⟩ => ⟨S2x13x48x256x256, .i32⟩
  | .hbm, ⟨11, _⟩ => ⟨S2x13x48x256x256, .i1⟩
  | .hbm, ⟨12, _⟩ => ⟨S2x13x48x256x256, .f32⟩
  | .hbm, ⟨13, _⟩ => ⟨S2x13x48x256x256, .f32⟩
  | .hbm, ⟨14, _⟩ => ⟨S2x13x48x256x256, .f32⟩
  | .hbm, ⟨15, _⟩ => ⟨S_, .f32⟩
  | .hbm, ⟨16, _⟩ => ⟨S2x13, .f32⟩
  | .hbm, ⟨17, _⟩ => ⟨S2x13x48x256x256, .f32⟩
  | .hbm, ⟨18, _⟩ => ⟨S_, .f32⟩
  | .hbm, ⟨19, _⟩ => ⟨S2x13, .f32⟩
  | .hbm, ⟨20, _⟩ => ⟨S_, .f32⟩
  | .hbm, ⟨21, _⟩ => ⟨S2x13, .f32⟩
  | .hbm, ⟨22, _⟩ => ⟨S_, .f32⟩
  | .hbm, ⟨23, _⟩ => ⟨S2x13, .f32⟩
  | .hbm, ⟨24, _⟩ => ⟨S2x13, .f32⟩
  | .hbm, ⟨25, _⟩ => ⟨S2x13, .f32⟩
  | .hbm, ⟨26, _⟩ => ⟨S_, .f32⟩
  | .hbm, ⟨27, _⟩ => ⟨S2x13, .f32⟩
  | .hbm, ⟨28, _⟩ => ⟨S2x13, .f32⟩
  | .hbm, ⟨29, _⟩ => ⟨S2x13, .f32⟩
  | .hbm, ⟨30, _⟩ => ⟨S_, .f32⟩
  | .hbm, ⟨31, _⟩ => ⟨S2, .f32⟩
  | .hbm, ⟨32, _⟩ => ⟨S_, .f32⟩
  | .hbm, ⟨33, _⟩ => ⟨S2, .f32⟩
  | .hbm, ⟨34, _⟩ => ⟨S2, .f32⟩
  | .hbm, ⟨35, _⟩ => ⟨S2x13x48x256x256, .f32⟩
  | .hbm, ⟨36, _⟩ => ⟨S2x13x48x256x256, .f32⟩
  | .hbm, ⟨37, _⟩ => ⟨S_, .f32⟩
  | .hbm, ⟨38, _⟩ => ⟨S2x13, .f32⟩
  | .hbm, ⟨39, _⟩ => ⟨S2x13x48x256x256, .f32⟩
  | .hbm, ⟨40, _⟩ => ⟨S_, .f32⟩
  | .hbm, ⟨41, _⟩ => ⟨S2x13, .f32⟩
  | .hbm, ⟨42, _⟩ => ⟨S_, .f32⟩
  | .hbm, ⟨43, _⟩ => ⟨S2x13, .f32⟩
  | .hbm, ⟨44, _⟩ => ⟨S_, .f32⟩
  | .hbm, ⟨45, _⟩ => ⟨S2x13, .f32⟩
  | .hbm, ⟨46, _⟩ => ⟨S2x13, .f32⟩
  | .hbm, ⟨47, _⟩ => ⟨S2x13, .f32⟩
  | .hbm, ⟨48, _⟩ => ⟨S_, .f32⟩
  | .hbm, ⟨49, _⟩ => ⟨S2x13, .f32⟩
  | .hbm, ⟨50, _⟩ => ⟨S2x13, .f32⟩
  | .hbm, ⟨51, _⟩ => ⟨S2x13, .f32⟩
  | .hbm, ⟨52, _⟩ => ⟨S_, .f32⟩
  | .hbm, ⟨53, _⟩ => ⟨S2, .f32⟩
  | .hbm, ⟨54, _⟩ => ⟨S_, .f32⟩
  | .hbm, ⟨55, _⟩ => ⟨S2, .f32⟩
  | .hbm, ⟨56, _⟩ => ⟨S2, .f32⟩
  | .hbm, ⟨57, _⟩ => ⟨S2, .f32⟩
  | .hbm, ⟨58, _⟩ => ⟨S_, .f32⟩
  | .hbm, ⟨59, _⟩ => ⟨S2, .f32⟩
  | .hbm, ⟨60, _⟩ => ⟨S2, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | _, _ => ⟨S2x14x48x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_cst_9 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_cst_12 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_cst_14 : Ref sig .tc := ⟨.hbm, 61, rfl⟩
abbrev main_v42 : Ref sig .tc := ⟨.hbm, 62, rfl⟩
abbrev main_cst_15 : Ref sig .tc := ⟨.hbm, 63, rfl⟩
abbrev main_v43 : Ref sig .tc := ⟨.hbm, 64, rfl⟩

abbrev nD : Nat := 1
abbrev τ : Topo := Topo.v7x

variable {F : FTy → Type} [FloatOps F]

class Facts₀ : Prop where
  bcast_S_S13 : S_.BroadcastsInDim S13 (![] : Fin 0 → Fin S13.rank)
  bcast_S2x48x256x256_S2x1x48x256x256_0_2_3_4 : S2x48x256x256.BroadcastsInDim S2x1x48x256x256 (![0, 2, 3, 4] : Fin 4 → Fin S2x1x48x256x256.rank)
  bcast_S13_S1x13x1x1x1_1 : S13.BroadcastsInDim S1x13x1x1x1 (![1] : Fin 1 → Fin S1x13x1x1x1.rank)
  bcast_S2x1x48x256x256_S2x13x48x256x256_0_1_2_3_4 : S2x1x48x256x256.BroadcastsInDim S2x13x48x256x256 (![0, 1, 2, 3, 4] : Fin 5 → Fin S2x13x48x256x256.rank)
  bcast_S1x13x1x1x1_S2x13x48x256x256_0_1_2_3_4 : S1x13x1x1x1.BroadcastsInDim S2x13x48x256x256 (![0, 1, 2, 3, 4] : Fin 5 → Fin S2x13x48x256x256.rank)
  slices_S2x14x48x256x256_S2x13x48x256x256_0_1_0_0_0 : S2x14x48x256x256.Slices ![0, 1, 0, 0, 0] S2x13x48x256x256
  reducesTo_S2x13x48x256x256_S2x13_d2_3_4 : S2x13x48x256x256.ReducesTo [2, 3, 4] S2x13
  h_S_ : 0 < S_.numel
  bcast_S_S2x13 : S_.BroadcastsInDim S2x13 (![] : Fin 0 → Fin S2x13.rank)
  reducesTo_S2x13_S2_d1 : S2x13.ReducesTo [1] S2
  bcast_S_S2 : S_.BroadcastsInDim S2 (![] : Fin 0 → Fin S2.rank)
  reducesTo_S2_S_d0 : S2.ReducesTo [0] S_

variable [Facts₀]

class Facts : Prop extends Facts₀ where

variable [Facts]
-- ==== Proof.Step.lean ====
/-
  One grid step as five accumulations, at any float instance.

  The body keeps five per-lane accumulators of shape `[2,13,256]` (batch, organ, lane). At each step it adds to
  each of them the sum over the 256 rows of a `[2,13,256,256]` array made from the step's blocks:
    0: prediction₁ × one-hot     1: prediction₁ squared     2: prediction₂ × one-hot     3: prediction₂ squared
    4: the one-hot array itself
  where prediction_k is channels 1…13 of the step's depth slice of prediction array k. At a core's first step the
  accumulators are zero; at its last step each accumulator is also summed over the lanes into a `[1,2,13]` block.
  This file names those pieces and shows that each store's payload in the body is one of them; the shape casts
  between equal shapes that the body prints are identities.
-/
import proofs.«128460_j80470507258049_2_alg».proof.Proof.Gen.KernelIdeal.Skeleton
import Idealize.ShloMosaic.Lib.Pipeline.Value

noncomputable section

open Idealize.ShloMosaic

namespace Cert.KernelIdeal.Step

open Cert.KernelIdeal Cert.KernelIdeal.Gen

variable {F : FTy → Type} [FloatOps F]

/-- Channels 1…13 of a `[2,14,1,256,256]` block. -/
def slab (x : Vec F S2x14x1x256x256 .f32) : Vec F S2x13x1x256x256 .f32 :=
  View.ld x (Rect.unit (s := S2x14x1x256x256) ![0, 1, 0, 0, 0] S2x13x1x256x256.size inb_S2x14x1x256x256_S2x13x1x256x256_0_1_0_0_0)

/-- The sum over the rows of a `[2,13,256,256]` array. -/
def rowSum (P : FVec F S2x13x256x256 .f32) : FVec F S2x13x256 .f32 :=
  multiReduction .add [2] S2x13x256 P 0x00000000#32 reduces_S2x13x256x256_S2x13x256 (.inl rfl) rfl

/-- One accumulation: the accumulator plus the row sums of the step's array. -/
def step (P : FVec F S2x13x256x256 .f32) (acc : Vec F S2x13x256 .f32) : FVec F S2x13x256 .f32 :=
  addf acc (rowSum P)

/-- The zero accumulator a core's first step starts from. -/
def zeros : FVec F S2x13x256 .f32 := broadcast S2x13x256 (Scalar.ofBits .f32 0x00000000#32)

/-- The sum over the lanes of an accumulator, as the `[1,2,13]` block the last step stores. -/
def lanes (acc : Vec F S2x13x256 .f32) : FVec F S1x2x13 .f32 :=
  shapeCast S1x2x13 (multiReduction .add [2] S2x13 acc 0x00000000#32 reduces_S2x13x256_S2x13 (.inl rfl) rfl) shapeCasts_S2x13_S1x2x13

/-- The five arrays a step sums over its rows, from the step's three blocks. -/
def prod0 (x0 : Vec F S2x14x1x256x256 .f32) (x2 : Vec F S2x1x256x256 .i32) : FVec F S2x13x256x256 .f32 :=
  mulf (k0_pay16 (slab x0)) (k0_pay18 x2)
def prod1 (x0 : Vec F S2x14x1x256x256 .f32) : FVec F S2x13x256x256 .f32 :=
  mulf (k0_pay16 (slab x0)) (k0_pay16 (slab x0))
def prod2 (x1 : Vec F S2x14x1x256x256 .f32) (x2 : Vec F S2x1x256x256 .i32) : FVec F S2x13x256x256 .f32 :=
  mulf (k0_pay17 (slab x1)) (k0_pay18 x2)
def prod3 (x1 : Vec F S2x14x1x256x256 .f32) : FVec F S2x13x256x256 .f32 :=
  mulf (k0_pay17 (slab x1)) (k0_pay17 (slab x1))
def prod4 (x2 : Vec F S2x1x256x256 .i32) : FVec F S2x13x256x256 .f32 :=
  k0_pay18 x2

/-! Each store's payload is one of the pieces above. -/

theorem pay19_eq (x0 : Vec F S2x14x1x256x256 .f32) (x2 : Vec F S2x1x256x256 .i32) (acc : Vec F S2x13x256 .f32) :
    k0_pay19 (slab x0) x2 acc = step (prod0 x0 x2) acc := by
  unfold k0_pay19 step prod0 rowSum
  exact shapeCast_self _ _

theorem pay1_eq (x0 : Vec F S2x14x1x256x256 .f32) (acc : Vec F S2x13x256 .f32) :
    k0_pay1 acc (k0_pay20 (slab x0)) = step (prod1 x0) acc := by
  unfold k0_pay1 k0_pay20 step prod1 rowSum
  exact shapeCast_self _ _

theorem pay2_eq (x1 : Vec F S2x14x1x256x256 .f32) (x2 : Vec F S2x1x256x256 .i32) (acc : Vec F S2x13x256 .f32) :
    k0_pay2 (k0_pay17 (slab x1)) (k0_pay18 x2) acc = step (prod2 x1 x2) acc := by
  unfold k0_pay2 step prod2 rowSum
  exact shapeCast_self _ _

theorem pay3_eq (x1 : Vec F S2x14x1x256x256 .f32) (acc : Vec F S2x13x256 .f32) :
    k0_pay3 (k0_pay17 (slab x1)) acc = step (prod3 x1) acc := by
  unfold k0_pay3 step prod3 rowSum
  exact shapeCast_self _ _

theorem pay4_eq (x2 : Vec F S2x1x256x256 .i32) (acc : Vec F S2x13x256 .f32) :
    k0_pay4 (k0_pay18 x2) acc = step (prod4 x2) acc := by
  unfold k0_pay4 step prod4 rowSum
  exact shapeCast_self _ _

theorem pay6_eq (acc : Vec F S2x13x256 .f32) : k0_pay6 acc = lanes acc := rfl
theorem pay7_eq (acc : Vec F S2x13x256 .f32) : k0_pay7 acc = lanes acc := rfl
theorem pay8_eq (acc : Vec F S2x13x256 .f32) : k0_pay8 acc = lanes acc := rfl
theorem pay9_eq (acc : Vec F S2x13x256 .f32) : k0_pay9 acc = lanes acc := rfl
theorem pay5_eq (acc : Vec F S2x13x256 .f32) : k0_pay5 (k0_pay10 acc) = lanes acc := rfl

theorem pay11_eq : k0_pay11 (F := F) = zeros := by unfold k0_pay11 zeros; exact shapeCast_self _ _
theorem pay12_eq : k0_pay12 (F := F) = zeros := by unfold k0_pay12 zeros; exact shapeCast_self _ _
theorem pay13_eq : k0_pay13 (F := F) = zeros := by unfold k0_pay13 zeros; exact shapeCast_self _ _
theorem pay14_eq : k0_pay14 (F := F) = zeros := by unfold k0_pay14 zeros; exact shapeCast_self _ _
theorem pay15_eq : k0_pay15 (F := F) = zeros := by unfold k0_pay15 zeros; exact shapeCast_self _ _

end Cert.KernelIdeal.Step

end
-- ==== Proof.Pieces.lean ====
/-
  What each case of the body leaves in the five accumulators and, at a core's last step, in the five output blocks.

  The body has three cases. At a core's first step (case A) it zeroes each accumulator and then adds the step's row
  sums, leaving `step P zeros`. At a middle step (case B) it adds the step's row sums to what the step before left,
  `step P acc`. At the last step (case C) it does the same and then stores, into each output block, the sum over the
  lanes of the accumulator it has just updated, `lanes (step P acc)`. The frame certificate found each buffer's final
  contents as the stores that cover it; here those stores' payloads are read back as these values. The loads read whole
  buffers, except the predictions' load of channels 1…13 (`slab`).
-/
import proofs.«128460_j80470507258049_2_alg».proof.Proof.FramePDefs
import proofs.«128460_j80470507258049_2_alg».proof.Proof.Step
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen Cert.KernelIdeal.GenP Cert.KernelIdeal.Step

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (c : Dev nD) (i : grid0.Coords) (arg2 : Memref sig .tc .vmem S2x14x1x256x256 .f32) (harg2 : arg2.IsWhole) (arg3 : Memref sig .tc .vmem S2x14x1x256x256 .f32) (harg3 : arg3.IsWhole) (arg4 : Memref sig .tc .vmem S2x1x256x256 .i32) (harg4 : arg4.IsWhole) (arg5 : Memref sig .tc .vmem S1x2x13 .f32) (harg5 : arg5.IsWhole) (arg6 : Memref sig .tc .vmem S1x2x13 .f32) (harg6 : arg6.IsWhole) (arg7 : Memref sig .tc .vmem S1x2x13 .f32) (harg7 : arg7.IsWhole) (arg8 : Memref sig .tc .vmem S1x2x13 .f32) (harg8 : arg8.IsWhole) (arg9 : Memref sig .tc .vmem S1x2x13 .f32) (harg9 : arg9.IsWhole) (arg10 : Memref sig .tc .vmem S2x13x256 .f32) (harg10 : arg10.IsWhole) (arg11 : Memref sig .tc .vmem S2x13x256 .f32) (harg11 : arg11.IsWhole) (arg12 : Memref sig .tc .vmem S2x13x256 .f32) (harg12 : arg12.IsWhole) (arg13 : Memref sig .tc .vmem S2x13x256 .f32) (harg13 : arg13.IsWhole) (arg14 : Memref sig .tc .vmem S2x13x256 .f32) (harg14 : arg14.IsWhole)
variable (x0 : Vec F S2x14x1x256x256 .f32) (x1 : Vec F S2x14x1x256x256 .f32) (x2 : Vec F S2x1x256x256 .i32) (xs0 : Vec F S2x13x256 .f32) (xs1 : Vec F S2x13x256 .f32) (xs2 : Vec F S2x13x256 .f32) (xs3 : Vec F S2x13x256 .f32) (xs4 : Vec F S2x13x256 .f32)

/-! ## A core's first step -/

theorem first_0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = step (prod0 x0 x2) zeros := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S2x13x256) hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  rw [pay11_eq]; exact pay19_eq x0 x2 zeros

theorem first_1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = step (prod1 x0) zeros := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S2x13x256) hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  rw [pay12_eq]; exact pay1_eq x0 zeros

theorem first_2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = step (prod2 x1 x2) zeros := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S2x13x256) hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  rw [pay13_eq]; exact pay2_eq x1 x2 zeros

theorem first_3 (hc0 : cond0_0 i) (hc1 : ¬cond0_1 i) :
    sout0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = step (prod3 x1) zeros := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S2x13x256) hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  rw [pay14_eq]; exact pay3_eq x1 zeros

theorem first_4 (hc0 : cond0_0 i) (hc1 : ¬cond0_1 i) :
    sout0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 = step (prod4 x2) zeros := by
  unfold sout0_A_4
  rw [View.read_writes_eq_canon _ _ _ (scover0_A_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2)]
  unfold kernelRun0_A
  dsimp only
  sl_unfold_words
  rw [View.canon_cons_unit_zero (S := S2x13x256) hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  rw [pay15_eq]; exact pay4_eq x2 zeros

/-! ## A middle step -/

theorem middle_0 (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod0 x0 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay19_eq x0 x2 xs0

theorem middle_1 (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod1 x0) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay1_eq x0 xs1

theorem middle_2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod2 x1 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay2_eq x1 x2 xs2

theorem middle_3 (hc0 : ¬cond0_0 i) (hc1 : ¬cond0_1 i) :
    sout0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod3 x1) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay3_eq x1 xs3

theorem middle_4 (hc0 : ¬cond0_0 i) (hc1 : ¬cond0_1 i) :
    sout0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod4 x2) xs4 := by
  unfold sout0_B_4
  rw [View.read_writes_eq_canon _ _ _ (scover0_B_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_B
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay4_eq x2 xs4

/-! ## A core's last step -/

theorem last_0 (hc0 : ¬cond0_0 i) (hc1 : cond0_1 i) :
    sout0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod0 x0 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay19_eq x0 x2 xs0

theorem last_1 (hc0 : ¬cond0_0 i) (hc1 : cond0_1 i) :
    sout0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod1 x0) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay1_eq x0 xs1

theorem last_2 (hc0 : ¬cond0_0 i) (hc1 : cond0_1 i) :
    sout0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod2 x1 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay2_eq x1 x2 xs2

theorem last_3 (hc0 : ¬cond0_0 i) (hc1 : cond0_1 i) :
    sout0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod3 x1) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay3_eq x1 xs3

theorem last_4 (hc0 : ¬cond0_0 i) (hc1 : cond0_1 i) :
    sout0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = step (prod4 x2) xs4 := by
  unfold sout0_C_4
  rw [View.read_writes_eq_canon _ _ _ (scover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact pay4_eq x2 xs4

theorem block_3 (hc0 : ¬cond0_0 i) (hc1 : cond0_1 i) :
    out0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = lanes (step (prod0 x0 x2) xs0) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact (pay6_eq _).trans (congrArg lanes (pay19_eq x0 x2 xs0))

theorem block_4 (hc0 : ¬cond0_0 i) (hc1 : cond0_1 i) :
    out0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = lanes (step (prod1 x0) xs1) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact (pay7_eq _).trans (congrArg lanes (pay1_eq x0 xs1))

theorem block_5 (hc0 : ¬cond0_0 i) (hc1 : cond0_1 i) :
    out0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = lanes (step (prod2 x1 x2) xs2) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact (pay8_eq _).trans (congrArg lanes (pay2_eq x1 x2 xs2))

theorem block_6 (hc0 : ¬cond0_0 i) (hc1 : cond0_1 i) :
    out0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = lanes (step (prod3 x1) xs3) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact (pay9_eq _).trans (congrArg lanes (pay3_eq x1 xs3))

theorem block_7 (hc0 : ¬cond0_0 i) (hc1 : cond0_1 i) :
    out0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4 = lanes (step (prod4 x2) xs4) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 arg14 harg14 hc0 hc1 x0 x1 x2 xs0 xs1 xs2 xs3 xs4)]
  unfold kernelRun0_C
  dsimp only
  sl_unfold_words
  rw [View.canon_unit_zero hz3]
  simp only [View.readAt_eq_ld, harg2.read_unread, harg3.read_unread, harg4.read_unread, harg10.read_unread, harg11.read_unread, harg12.read_unread, harg13.read_unread, harg14.read_unread, View.ld_unit_zero (S := S2x13x256) hz3, View.ld_unit_zero (S := S2x1x256x256) hz4, View.readCov_unit_zero (S := S2x13x256) _ hz3]
  exact (pay5_eq _).trans (congrArg lanes (pay4_eq x2 xs4))

end Cert.KernelIdeal.Pieces

end
-- ==== Proof.Accum.lean ====
/-
  The accumulators over a core's run of 24 steps, at any float instance.

  Grid point `n` (of 48) is step `n % 24` of core `n / 24`, and its blocks are depth slice `n` of the three arrays.
  Writing `Pⱼ n` for the `j`-th array the step at point `n` sums over its rows, accumulator `j` after point `n` is
  `step (Pⱼ n) zeros` when `n` starts a run and `step (Pⱼ n)` of what point `n - 1` left otherwise: the fold of
  `step` over the run's points so far, from `zeros`. At a run's last point each output block holds the sum over the
  lanes of the accumulator just updated. The frame certificate states what the buffers hold after each point by
  recursion on the point over its three cases; this file reads that recursion as the fold, by induction on the
  position inside a run (never on the 48 points).
-/
import proofs.«128460_j80470507258049_2_alg».proof.Proof.Pieces

set_option maxRecDepth 16384

noncomputable section

open Idealize.ShloMosaic Idealize.ShloMosaic.TcCoe Idealize.SL.Sem

namespace Cert.KernelIdeal.Accum

open Cert.KernelIdeal Cert.KernelIdeal.Gen Cert.KernelIdeal.GenP Cert.KernelIdeal.Step Cert.KernelIdeal.Pieces

variable {F : FTy → Type} [FloatOps F]
variable (m : (ℓ : Loc nD τ sig) → Buf (Elt F) ℓ) (c : Dev nD)

/-! ## The five arrays of a point, and the five accumulators after it -/

/-- Array `0` of the step at point `t`, from the point's blocks. -/
def P0 (t : Fin cfg0.N) : FVec F S2x13x256x256 .f32 := prod0 (iblk m c 0 t) (iblk m c 2 t)
/-- Accumulator `0` after point `n`. -/
def sc0 (n : ℕ) (h : n < cfg0.N) : Vec F S2x13x256 .f32 := (outsAt0 m c n h).2.2.2.2.2.1

/-- Array `1` of the step at point `t`, from the point's blocks. -/
def P1 (t : Fin cfg0.N) : FVec F S2x13x256x256 .f32 := prod1 (iblk m c 0 t)
/-- Accumulator `1` after point `n`. -/
def sc1 (n : ℕ) (h : n < cfg0.N) : Vec F S2x13x256 .f32 := (outsAt0 m c n h).2.2.2.2.2.2.1

/-- Array `2` of the step at point `t`, from the point's blocks. -/
def P2 (t : Fin cfg0.N) : FVec F S2x13x256x256 .f32 := prod2 (iblk m c 1 t) (iblk m c 2 t)
/-- Accumulator `2` after point `n`. -/
def sc2 (n : ℕ) (h : n < cfg0.N) : Vec F S2x13x256 .f32 := (outsAt0 m c n h).2.2.2.2.2.2.2.1

/-- Array `3` of the step at point `t`, from the point's blocks. -/
def P3 (t : Fin cfg0.N) : FVec F S2x13x256x256 .f32 := prod3 (iblk m c 1 t)
/-- Accumulator `3` after point `n`. -/
def sc3 (n : ℕ) (h : n < cfg0.N) : Vec F S2x13x256 .f32 := (outsAt0 m c n h).2.2.2.2.2.2.2.2.1

/-- Array `4` of the step at point `t`, from the point's blocks. -/
def P4 (t : Fin cfg0.N) : FVec F S2x13x256x256 .f32 := prod4 (iblk m c 2 t)
/-- Accumulator `4` after point `n`. -/
def sc4 (n : ℕ) (h : n < cfg0.N) : Vec F S2x13x256 .f32 := (outsAt0 m c n h).2.2.2.2.2.2.2.2.2

/-! ## The recursion: a run's first point resets, every other point steps -/

theorem sc0_first (n : ℕ) (h : n < cfg0.N) (h0 : n % 24 = 0) : sc0 m c n h = step (P0 m c ⟨n, h⟩) zeros := by
  have h1 : ¬(⟨n, h⟩ : Fin cfg0.N).val % 24 = 23 := by dsimp only; omega
  unfold sc0
  rw [outsAt0_A m c ⟨n, h⟩ h0 h1]
  dsimp only
  exact first_0 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) scM0_2 (Memref.isWhole_whole _) scM0_3 (Memref.isWhole_whole _) scM0_4 (Memref.isWhole_whole _) (iblk m c 0 ⟨n, h⟩) (iblk m c 1 ⟨n, h⟩) (iblk m c 2 ⟨n, h⟩) _ _

theorem sc0_step (n : ℕ) (h : n + 1 < cfg0.N) (h0 : ¬(n + 1) % 24 = 0) :
    sc0 m c (n + 1) h = step (P0 m c ⟨n + 1, h⟩) (sc0 m c n (Nat.lt_of_succ_lt h)) := by
  unfold sc0
  by_cases h1 : (n + 1) % 24 = 23
  · rw [outsAt0_C m c ⟨n + 1, h⟩ h0 h1]
    dsimp only
    exact last_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _
  · rw [outsAt0_B m c ⟨n + 1, h⟩ h0 h1]
    dsimp only
    exact middle_0 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

/-- Accumulator `0` after point `n` is the fold of `step` over the points of `n`'s run up to `n`. -/
theorem sc0_fold (n : ℕ) (h : n < cfg0.N) (h' : 24 * (n / 24) + n % 24 < cfg0.N) :
    sc0 m c n h = Pipeline.accAt (fun k hk => step (P0 m c ⟨k, hk⟩) zeros) (fun k hk acc => step (P0 m c ⟨k, hk⟩) acc)
      (24 * (n / 24)) (n % 24) h' :=
  Pipeline.eq_accAt_of_mod (fun k hk => sc0 m c k hk) 24 _ _ (sc0_first m c) (sc0_step m c) (by decide) n h h'

theorem sc1_first (n : ℕ) (h : n < cfg0.N) (h0 : n % 24 = 0) : sc1 m c n h = step (P1 m c ⟨n, h⟩) zeros := by
  have h1 : ¬(⟨n, h⟩ : Fin cfg0.N).val % 24 = 23 := by dsimp only; omega
  unfold sc1
  rw [outsAt0_A m c ⟨n, h⟩ h0 h1]
  dsimp only
  exact first_1 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) scM0_2 (Memref.isWhole_whole _) scM0_3 (Memref.isWhole_whole _) scM0_4 (Memref.isWhole_whole _) (iblk m c 0 ⟨n, h⟩) (iblk m c 1 ⟨n, h⟩) (iblk m c 2 ⟨n, h⟩) _ _

theorem sc1_step (n : ℕ) (h : n + 1 < cfg0.N) (h0 : ¬(n + 1) % 24 = 0) :
    sc1 m c (n + 1) h = step (P1 m c ⟨n + 1, h⟩) (sc1 m c n (Nat.lt_of_succ_lt h)) := by
  unfold sc1
  by_cases h1 : (n + 1) % 24 = 23
  · rw [outsAt0_C m c ⟨n + 1, h⟩ h0 h1]
    dsimp only
    exact last_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _
  · rw [outsAt0_B m c ⟨n + 1, h⟩ h0 h1]
    dsimp only
    exact middle_1 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

/-- Accumulator `1` after point `n` is the fold of `step` over the points of `n`'s run up to `n`. -/
theorem sc1_fold (n : ℕ) (h : n < cfg0.N) (h' : 24 * (n / 24) + n % 24 < cfg0.N) :
    sc1 m c n h = Pipeline.accAt (fun k hk => step (P1 m c ⟨k, hk⟩) zeros) (fun k hk acc => step (P1 m c ⟨k, hk⟩) acc)
      (24 * (n / 24)) (n % 24) h' :=
  Pipeline.eq_accAt_of_mod (fun k hk => sc1 m c k hk) 24 _ _ (sc1_first m c) (sc1_step m c) (by decide) n h h'

theorem sc2_first (n : ℕ) (h : n < cfg0.N) (h0 : n % 24 = 0) : sc2 m c n h = step (P2 m c ⟨n, h⟩) zeros := by
  have h1 : ¬(⟨n, h⟩ : Fin cfg0.N).val % 24 = 23 := by dsimp only; omega
  unfold sc2
  rw [outsAt0_A m c ⟨n, h⟩ h0 h1]
  dsimp only
  exact first_2 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) scM0_2 (Memref.isWhole_whole _) scM0_3 (Memref.isWhole_whole _) scM0_4 (Memref.isWhole_whole _) (iblk m c 0 ⟨n, h⟩) (iblk m c 1 ⟨n, h⟩) (iblk m c 2 ⟨n, h⟩) _ _

theorem sc2_step (n : ℕ) (h : n + 1 < cfg0.N) (h0 : ¬(n + 1) % 24 = 0) :
    sc2 m c (n + 1) h = step (P2 m c ⟨n + 1, h⟩) (sc2 m c n (Nat.lt_of_succ_lt h)) := by
  unfold sc2
  by_cases h1 : (n + 1) % 24 = 23
  · rw [outsAt0_C m c ⟨n + 1, h⟩ h0 h1]
    dsimp only
    exact last_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _
  · rw [outsAt0_B m c ⟨n + 1, h⟩ h0 h1]
    dsimp only
    exact middle_2 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

/-- Accumulator `2` after point `n` is the fold of `step` over the points of `n`'s run up to `n`. -/
theorem sc2_fold (n : ℕ) (h : n < cfg0.N) (h' : 24 * (n / 24) + n % 24 < cfg0.N) :
    sc2 m c n h = Pipeline.accAt (fun k hk => step (P2 m c ⟨k, hk⟩) zeros) (fun k hk acc => step (P2 m c ⟨k, hk⟩) acc)
      (24 * (n / 24)) (n % 24) h' :=
  Pipeline.eq_accAt_of_mod (fun k hk => sc2 m c k hk) 24 _ _ (sc2_first m c) (sc2_step m c) (by decide) n h h'

theorem sc3_first (n : ℕ) (h : n < cfg0.N) (h0 : n % 24 = 0) : sc3 m c n h = step (P3 m c ⟨n, h⟩) zeros := by
  have h1 : ¬(⟨n, h⟩ : Fin cfg0.N).val % 24 = 23 := by dsimp only; omega
  unfold sc3
  rw [outsAt0_A m c ⟨n, h⟩ h0 h1]
  dsimp only
  exact first_3 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) scM0_2 (Memref.isWhole_whole _) scM0_3 (Memref.isWhole_whole _) scM0_4 (Memref.isWhole_whole _) (iblk m c 0 ⟨n, h⟩) (iblk m c 1 ⟨n, h⟩) (iblk m c 2 ⟨n, h⟩) _ _

theorem sc3_step (n : ℕ) (h : n + 1 < cfg0.N) (h0 : ¬(n + 1) % 24 = 0) :
    sc3 m c (n + 1) h = step (P3 m c ⟨n + 1, h⟩) (sc3 m c n (Nat.lt_of_succ_lt h)) := by
  unfold sc3
  by_cases h1 : (n + 1) % 24 = 23
  · rw [outsAt0_C m c ⟨n + 1, h⟩ h0 h1]
    dsimp only
    exact last_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _
  · rw [outsAt0_B m c ⟨n + 1, h⟩ h0 h1]
    dsimp only
    exact middle_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

/-- Accumulator `3` after point `n` is the fold of `step` over the points of `n`'s run up to `n`. -/
theorem sc3_fold (n : ℕ) (h : n < cfg0.N) (h' : 24 * (n / 24) + n % 24 < cfg0.N) :
    sc3 m c n h = Pipeline.accAt (fun k hk => step (P3 m c ⟨k, hk⟩) zeros) (fun k hk acc => step (P3 m c ⟨k, hk⟩) acc)
      (24 * (n / 24)) (n % 24) h' :=
  Pipeline.eq_accAt_of_mod (fun k hk => sc3 m c k hk) 24 _ _ (sc3_first m c) (sc3_step m c) (by decide) n h h'

theorem sc4_first (n : ℕ) (h : n < cfg0.N) (h0 : n % 24 = 0) : sc4 m c n h = step (P4 m c ⟨n, h⟩) zeros := by
  have h1 : ¬(⟨n, h⟩ : Fin cfg0.N).val % 24 = 23 := by dsimp only; omega
  unfold sc4
  rw [outsAt0_A m c ⟨n, h⟩ h0 h1]
  dsimp only
  exact first_4 c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) scM0_0 (Memref.isWhole_whole _) scM0_1 (Memref.isWhole_whole _) scM0_2 (Memref.isWhole_whole _) scM0_3 (Memref.isWhole_whole _) scM0_4 (Memref.isWhole_whole _) (iblk m c 0 ⟨n, h⟩) (iblk m c 1 ⟨n, h⟩) (iblk m c 2 ⟨n, h⟩) _ _

theorem sc4_step (n : ℕ) (h : n + 1 < cfg0.N) (h0 : ¬(n + 1) % 24 = 0) :
    sc4 m c (n + 1) h = step (P4 m c ⟨n + 1, h⟩) (sc4 m c n (Nat.lt_of_succ_lt h)) := by
  unfold sc4
  by_cases h1 : (n + 1) % 24 = 23
  · rw [outsAt0_C m c ⟨n + 1, h⟩ h0 h1]
    dsimp only
    exact last_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _
  · rw [outsAt0_B m c ⟨n + 1, h⟩ h0 h1]
    dsimp only
    exact middle_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

/-- Accumulator `4` after point `n` is the fold of `step` over the points of `n`'s run up to `n`. -/
theorem sc4_fold (n : ℕ) (h : n < cfg0.N) (h' : 24 * (n / 24) + n % 24 < cfg0.N) :
    sc4 m c n h = Pipeline.accAt (fun k hk => step (P4 m c ⟨k, hk⟩) zeros) (fun k hk acc => step (P4 m c ⟨k, hk⟩) acc)
      (24 * (n / 24)) (n % 24) h' :=
  Pipeline.eq_accAt_of_mod (fun k hk => sc4 m c k hk) 24 _ _ (sc4_first m c) (sc4_step m c) (by decide) n h h'

/-! ## A run's last point: each output block is the lane sum of its accumulator -/

theorem out3_last (t : Fin cfg0.N) (h1 : t.val % 24 = 23) :
    (outsAt0 m c t.val t.isLt).1 = lanes (sc0 m c t.val t.isLt) := by
  have h0 : ¬t.val % 24 = 0 := by omega
  obtain ⟨n, h⟩ := t
  cases n with
  | zero => exact absurd h1 (show ¬(0 : ℕ) % 24 = 23 by decide)
  | succ n =>
    rw [sc0_step m c n h h0, outsAt0_C m c ⟨n + 1, h⟩ h0 h1]
    dsimp only
    exact block_3 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

theorem out4_last (t : Fin cfg0.N) (h1 : t.val % 24 = 23) :
    (outsAt0 m c t.val t.isLt).2.1 = lanes (sc1 m c t.val t.isLt) := by
  have h0 : ¬t.val % 24 = 0 := by omega
  obtain ⟨n, h⟩ := t
  cases n with
  | zero => exact absurd h1 (show ¬(0 : ℕ) % 24 = 23 by decide)
  | succ n =>
    rw [sc1_step m c n h h0, outsAt0_C m c ⟨n + 1, h⟩ h0 h1]
    dsimp only
    exact block_4 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

theorem out5_last (t : Fin cfg0.N) (h1 : t.val % 24 = 23) :
    (outsAt0 m c t.val t.isLt).2.2.1 = lanes (sc2 m c t.val t.isLt) := by
  have h0 : ¬t.val % 24 = 0 := by omega
  obtain ⟨n, h⟩ := t
  cases n with
  | zero => exact absurd h1 (show ¬(0 : ℕ) % 24 = 23 by decide)
  | succ n =>
    rw [sc2_step m c n h h0, outsAt0_C m c ⟨n + 1, h⟩ h0 h1]
    dsimp only
    exact block_5 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

theorem out6_last (t : Fin cfg0.N) (h1 : t.val % 24 = 23) :
    (outsAt0 m c t.val t.isLt).2.2.2.1 = lanes (sc3 m c t.val t.isLt) := by
  have h0 : ¬t.val % 24 = 0 := by omega
  obtain ⟨n, h⟩ := t
  cases n with
  | zero => exact absurd h1 (show ¬(0 : ℕ) % 24 = 23 by decide)
  | succ n =>
    rw [sc3_step m c n h h0, outsAt0_C m c ⟨n + 1, h⟩ h0 h1]
    dsimp only
    exact block_6 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

theorem out7_last (t : Fin cfg0.N) (h1 : t.val % 24 = 23) :
    (outsAt0 m c t.val t.isLt).2.2.2.2.1 = lanes (sc4 m c t.val t.isLt) := by
  have h0 : ¬t.val % 24 = 0 := by omega
  obtain ⟨n, h⟩ := t
  cases n with
  | zero => exact absurd h1 (show ¬(0 : ℕ) % 24 = 23 by decide)
  | succ n =>
    rw [sc4_step m c n h h0, outsAt0_C m c ⟨n + 1, h⟩ h0 h1]
    dsimp only
    exact block_7 c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) scM0_0 (Memref.isWhole_whole _) scM0_1 (Memref.isWhole_whole _) scM0_2 (Memref.isWhole_whole _) scM0_3 (Memref.isWhole_whole _) scM0_4 (Memref.isWhole_whole _) (iblk m c 0 ⟨n + 1, h⟩) (iblk m c 1 ⟨n + 1, h⟩) (iblk m c 2 ⟨n + 1, h⟩) (sc0 m c n (Nat.lt_of_succ_lt h)) (sc1 m c n (Nat.lt_of_succ_lt h)) (sc2 m c n (Nat.lt_of_succ_lt h)) (sc3 m c n (Nat.lt_of_succ_lt h)) (sc4 m c n (Nat.lt_of_succ_lt h)) _ _

end Cert.KernelIdeal.Accum

end
-- ==== Proof.PayAt.lean ====
/-
  The arithmetic of one grid step, read at an index over the extended reals.

  A grid step sees one depth slice of each prediction array, `[2,14,1,256,256]`, and of the label array,
  `[2,1,256,256]`. From them it forms, for batch `b`, organ `o` (channel `o + 1`), row `h` and lane `w`:
  the prediction `p (b, o+1, 0, h, w)`, the one-hot value `hot` of the label at `(b, 0, h, w)` for class `o + 1`,
  their products, and the sum of such a four-axis array over the rows `h` (a lane-parallel partial sum, one per
  lane). At the last step of a core's run the per-lane accumulators are summed over the lanes `w`.
  Every fact here is about ONE array expression at ONE index; no sum is reordered.
-/
import proofs.«128460_j80470507258049_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.PayAt

open Cert.KernelIdeal Cert.KernelIdeal.Gen

/-- The one-hot value of a label `a` for organ `o` (class `o + 1`) as an extended real: `1` when `a = o + 1`, else `0`. -/
def hot (a : BitVec 32) (o : Fin 13) : EReal :=
  (((IntOp.cmpi .eq a (BitVec.ofNat 32 o.val + 1#32)).toNat : ℝ) : EReal)

/-- A one-bit word widened to 32 bits and read as a signed integer is the bit read as a natural number. -/
theorem toInt_setWidth_bit (b : BitVec 1) : (((b.setWidth 32).toInt : ℤ) : ℝ) = ((b.toNat : ℕ) : ℝ) := by
  have h : b = 0#1 ∨ b = 1#1 := by
    have := b.isLt
    rcases Nat.lt_or_ge b.toNat 1 with h | h
    · left; apply BitVec.eq_of_toNat_eq; simp; omega
    · right; apply BitVec.eq_of_toNat_eq; simp; omega
  rcases h with rfl | rfl <;> simp

/-- Dropping the unit depth axis of a `[2,13,1,256,256]` slab: entry `(b, o, h, w)` is entry `(b, o, 0, h, w)`. -/
theorem drop_depth {α : Type} (v : S2x13x1x256x256.Idx → α) (hc : S2x13x1x256x256.ShapeCasts S2x13x256x256)
    (b : Fin 2) (o : Fin 13) (h w : Fin 256) :
    shapeCast S2x13x256x256 v hc (ix4 b o h w) = v (ix5 b o (0 : Fin 1) h w) :=
  shapeCast_apply v hc _ _ (by
    rw [Shape.rowMajor_val_five, Shape.rowMajor_val_four]
    show (((b.val * 13 + o.val) * 1 + 0) * 256 + h.val) * 256 + w.val = ((b.val * 13 + o.val) * 256 + h.val) * 256 + w.val
    omega)

theorem pay16_apply (v3 : Vec Ideal S2x13x1x256x256 .f32) (b : Fin 2) (o : Fin 13) (h w : Fin 256) :
    k0_pay16 (F := Ideal) v3 (ix4 b o h w) = v3 (ix5 b o (0 : Fin 1) h w) := by
  unfold k0_pay16
  exact drop_depth v3 _ b o h w

theorem pay17_apply (v5 : Vec Ideal S2x13x1x256x256 .f32) (b : Fin 2) (o : Fin 13) (h w : Fin 256) :
    k0_pay17 (F := Ideal) v5 (ix4 b o h w) = v5 (ix5 b o (0 : Fin 1) h w) := by
  unfold k0_pay17
  exact drop_depth v5 _ b o h w

/-- The labels spread over the thirteen organs: entry `(b, o, h, w)` is the label at `(b, 0, h, w)`. -/
theorem spread_labels (x : IVec S2x1x256x256 32) (hb : S2x1x256x256.Broadcasts S2x13x256x256)
    (b : Fin 2) (o : Fin 13) (h w : Fin 256) :
    broadcastTo S2x13x256x256 x hb (ix4 b o h w) = x (ix4 b (0 : Fin 1) h w) :=
  broadcastTo_apply x hb _ _ (fun a => match a with
    | ⟨0, _⟩ => by show b.val = if (2 : Nat) = 1 then 0 else b.val; rw [if_neg (by decide)]
    | ⟨1, _⟩ => by show 0 = if (1 : Nat) = 1 then 0 else o.val; rw [if_pos rfl]
    | ⟨2, _⟩ => by show h.val = if (256 : Nat) = 1 then 0 else h.val; rw [if_neg (by decide)]
    | ⟨3, _⟩ => by show w.val = if (256 : Nat) = 1 then 0 else w.val; rw [if_neg (by decide)])

/-- The organ numbers spread over batch, rows and lanes: entry `(b, o, h, w)` is the number at `(0, o, 0, 0)`. -/
theorem spread_organs (x : IVec S1x13x1x1 32) (hb : S1x13x1x1.Broadcasts S2x13x256x256)
    (b : Fin 2) (o : Fin 13) (h w : Fin 256) :
    broadcastTo S2x13x256x256 x hb (ix4 b o h w) = x (ix4 (0 : Fin 1) o (0 : Fin 1) (0 : Fin 1)) :=
  broadcastTo_apply x hb _ _ (fun a => match a with
    | ⟨0, _⟩ => by show 0 = if (1 : Nat) = 1 then 0 else b.val; rw [if_pos rfl]
    | ⟨1, _⟩ => by show o.val = if (13 : Nat) = 1 then 0 else o.val; rw [if_neg (by decide)]
    | ⟨2, _⟩ => by show 0 = if (1 : Nat) = 1 then 0 else h.val; rw [if_pos rfl]
    | ⟨3, _⟩ => by show 0 = if (1 : Nat) = 1 then 0 else w.val; rw [if_pos rfl])

/-- The organ numbers `1 … 13`: the count along the organ axis plus one, at `(0, o, 0, 0)`, is `o + 1`. -/
theorem organ_number (hi : S1x13x1x1.Iotas .tc 32 [1]) (o : Fin 13) :
    addi (iota .tc S1x13x1x1 32 [1] hi) (broadcast S1x13x1x1 1#32) (ix4 (0 : Fin 1) o (0 : Fin 1) (0 : Fin 1))
      = BitVec.ofNat 32 o.val + 1#32 := by
  show IntOp.addi (iota .tc S1x13x1x1 32 [1] hi _) 1#32 = _
  rw [iota_single_apply]
  rfl

/-- The one-hot array of a label slice: entry `(b, o, h, w)` is `hot` of the label at `(b, 0, h, w)` for organ `o`. -/
theorem pay18_apply (v7 : Vec Ideal S2x1x256x256 .i32) (b : Fin 2) (o : Fin 13) (h w : Fin 256) :
    k0_pay18 (F := Ideal) v7 (ix4 b o h w) = hot (v7 (ix4 b (0 : Fin 1) h w)) o := by
  unfold k0_pay18
  show ((((IntOp.cmpi .eq _ _).setWidth 32).toInt : ℝ) : EReal) = _
  rw [spread_labels, spread_organs, shapeCast_shapeCast]
  unfold hot
  rw [show (((IntOp.cmpi .eq (v7 (ix4 b (0 : Fin 1) h w)) _).setWidth 32).toInt : ℝ) = _ from toInt_setWidth_bit _,
    organ_number]

/-- The sum over the rows of a `[2,13,256,256]` array, at batch `b`, organ `o` and lane `w`. -/
theorem sum_rows (P : FVec Ideal S2x13x256x256 .f32) (hred : S2x13x256x256.Reduces [2] S2x13x256)
    (hφ : FKind.Formats .f32) (hacc : (0x00000000#32 : BitVec 32) = FKind.add.neutral .f32 hφ)
    (b : Fin 2) (o : Fin 13) (w : Fin 256) :
    multiReduction .add [2] S2x13x256 P 0x00000000#32 hred hφ hacc (ix3 b o w) = ∑ h : Fin 256, P (ix4 b o h w) := by
  refine (Ideal.multiReduction_add_single P 0x00000000#32 hred hφ hacc (ix3 b o w)).trans ?_
  show ∑ k : Fin 256, P (hred.lift (ix3 b o w) k) = _
  refine Finset.sum_congr rfl fun k _ => congrArg P (funext fun a => ?_)
  match a with
  | ⟨0, _⟩ => rfl
  | ⟨1, _⟩ => rfl
  | ⟨2, _⟩ => rfl
  | ⟨3, _⟩ => rfl

/-- The sum over the lanes of a `[2,13,256]` array, at batch `b` and organ `o`. -/
theorem sum_lanes (A : FVec Ideal S2x13x256 .f32) (hred : S2x13x256.Reduces [2] S2x13)
    (hφ : FKind.Formats .f32) (hacc : (0x00000000#32 : BitVec 32) = FKind.add.neutral .f32 hφ)
    (b : Fin 2) (o : Fin 13) :
    multiReduction .add [2] S2x13 A 0x00000000#32 hred hφ hacc (ix2 b o) = ∑ w : Fin 256, A (ix3 b o w) := by
  refine (Ideal.multiReduction_add_single A 0x00000000#32 hred hφ hacc (ix2 b o)).trans ?_
  show ∑ k : Fin 256, A (hred.lift (ix2 b o) k) = _
  refine Finset.sum_congr rfl fun k _ => congrArg A (funext fun a => ?_)
  match a with
  | ⟨0, _⟩ => rfl
  | ⟨1, _⟩ => rfl
  | ⟨2, _⟩ => rfl

end Cert.KernelIdeal.PayAt

end
-- ==== Proof.Final.lean ====
/-
  What the five output arrays hold after the run, over the extended reals.

  Output array `j` has shape `[2,2,13]` (core, batch, organ); core `q` writes its `[1,2,13]` block once, at its last
  step (grid point `24·q + 23`). With `Mⱼ k` the row sums of array `j` of the step at point `k` (a `[2,13,256]` array:
  batch, organ, lane), the accumulator after point `n` is, lane by lane, the zero plus the sum of `Mⱼ k` over the
  points `k` of `n`'s run up to `n`; so entry `(q, b, o)` of output `j` ends as
      Gⱼ (q, b, o) = ∑_w ( 0 + ∑_{s < 24} Mⱼ (24·q + s) (b, o, w) ).
  The two blocks tile the array, so the whole array ends at `Gⱼ`.
-/
import proofs.«128460_j80470507258049_2_alg».proof.Proof.Accum
import proofs.«128460_j80470507258049_2_alg».proof.Proof.PayAt
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.GenP Cert.KernelIdeal.Step Cert.KernelIdeal.Accum Cert.KernelIdeal.PayAt

variable (m : (ℓ : Loc nD τ sig) → Buf (Elt Ideal) ℓ) (ρ : Dev nD → PrngReg) (c : Dev nD)

/-- The zero every partial sum starts from. -/
abbrev z0 : EReal := Ideal.ofBits .f32 0x00000000#32

/-- The lane sum of an accumulator at block entry `(u, b, o)`: the sum over the lanes of its entries `(b, o, w)`. -/
theorem lanes_apply (acc : Vec Ideal S2x13x256 .f32) (u : Fin 1) (b : Fin 2) (o : Fin 13) :
    lanes acc (ix3 u b o) = ∑ w : Fin 256, acc (ix3 b o w) := by
  unfold lanes
  rw [shapeCast_ab_1ab_apply]
  exact sum_lanes acc _ _ _ b o

/-- Where the output windows sit: at point `t` the block index is `(t / 24, 0, 0)`, for each of the five. -/
theorem idx_out : ∀ t : Fin cfg0.N,
    (win0_3.index t (0 : Fin 3) = t.val / 24 ∧ win0_3.index t (1 : Fin 3) = 0 ∧ win0_3.index t (2 : Fin 3) = 0)
    ∧ (win0_4.index t (0 : Fin 3) = t.val / 24 ∧ win0_4.index t (1 : Fin 3) = 0 ∧ win0_4.index t (2 : Fin 3) = 0)
    ∧ (win0_5.index t (0 : Fin 3) = t.val / 24 ∧ win0_5.index t (1 : Fin 3) = 0 ∧ win0_5.index t (2 : Fin 3) = 0)
    ∧ (win0_6.index t (0 : Fin 3) = t.val / 24 ∧ win0_6.index t (1 : Fin 3) = 0 ∧ win0_6.index t (2 : Fin 3) = 0)
    ∧ (win0_7.index t (0 : Fin 3) = t.val / 24 ∧ win0_7.index t (1 : Fin 3) = 0 ∧ win0_7.index t (2 : Fin 3) = 0) :=
  (by decide +kernel : ∀ t : Fin grid0.N, _)

/-- The last point of core `q`'s run. -/
def lastOf (q : Fin 2) : Fin cfg0.N := ⟨24 * q.val + 23, by rw [show cfg0.N = 48 from N_0]; have := q.isLt; omega⟩

/-! ## Output 0 (window 3) -/

/-- The row sums of array `0` of the step at point `k` (zero for a `k` past the grid, which no sum below reaches). -/
def M0 (k : ℕ) : S2x13x256.Idx → EReal :=
  if hk : k < cfg0.N then rowSum (P0 m c ⟨k, hk⟩) else fun _ => 0

/-- Accumulator `0` after point `n`, at an index: the zero plus the row sums of the points of `n`'s run up to `n`. -/
theorem sc0_apply (n : ℕ) (h : n < cfg0.N) (i : S2x13x256.Idx) :
    sc0 m c n h i = z0 + ∑ s ∈ Finset.range (n % 24 + 1), M0 m c (24 * (n / 24) + s) i := by
  have h' : 24 * (n / 24) + n % 24 < cfg0.N := by rw [Nat.div_add_mod]; exact h
  rw [sc0_fold m c n h h']
  exact Pipeline.accAt_add_apply _ _ (fun _ => z0) (M0 m c) (24 * (n / 24)) (n % 24)
    (fun hb i => by
      show z0 + rowSum (P0 m c ⟨_, hb⟩) i = z0 + M0 m c _ i
      unfold M0; rw [dif_pos hb])
    (fun k hk acc i _ _ => by
      show acc i + rowSum (P0 m c ⟨k, hk⟩) i = acc i + M0 m c k i
      unfold M0; rw [dif_pos hk])
    (n % 24) le_rfl h' i

/-- What output array `0` ends holding. -/
def G0 : S2x2x13.Idx → EReal := fun i =>
  ∑ w : Fin 256, (z0 + ∑ s ∈ Finset.range 24,
    M0 m c (24 * (i 0).val + s) (ix3 (⟨(i 1).val, (i 1).isLt⟩ : Fin 2) (⟨(i 2).val, (i 2).isLt⟩ : Fin 13) w))

theorem G0_apply (q b : Fin 2) (o : Fin 13) :
    G0 m c (ix3 q b o) = ∑ w : Fin 256, (z0 + ∑ s ∈ Finset.range 24, M0 m c (24 * q.val + s) (ix3 b o w)) := rfl

/-- What a write-back of window 3 writes is the block of `G0` it covers. -/
theorem flushed3_eq (t : Fin cfg0.N) (hf : (cfg0.win 3).flush t = true) :
    (dats m 0 c).flushed 3 t = ((cfg0.win 3).blk t).view.read (Elt Ideal) (G0 m c) := by
  have h23 : t.val % 24 = 23 := (flush0_3 t).mp hf
  have hN : cfg0.N = 48 := N_0
  have hi := idx_out t
  obtain ⟨e0, e1, e2⟩ := hi.1
  show (cfg0.win 3).cut (grid0.coords t) ((dats m 0 c).after 3 t) = _
  rw [after0_3, out3_last m c t h23]
  funext y
  obtain ⟨u, b, o, rfl⟩ : ∃ (u : Fin 1) (b : Fin 2) (o : Fin 13), y = ix3 u b o := ⟨y 0, y 1, y 2, eq_ix3 y⟩
  have hq : t.val / 24 < 2 := by have := t.isLt; omega
  have hemb : ((cfg0.win 3).blk t).view.emb (ix3 u b o) = ix3 (⟨t.val / 24, hq⟩ : Fin 2) b o := by
    funext a; apply Fin.ext
    match a with
    | ⟨0, _⟩ => show win0_3.index t (0 : Fin 3) * 1 + 1 * u.val = t.val / 24; have := u.isLt; omega
    | ⟨1, _⟩ => show win0_3.index t (1 : Fin 3) * 2 + 1 * b.val = b.val; omega
    | ⟨2, _⟩ => show win0_3.index t (2 : Fin 3) * 13 + 1 * o.val = o.val; omega
  show lanes (sc0 m c t.val t.isLt) (ix3 u b o) = G0 m c (((cfg0.win 3).blk t).view.emb (ix3 u b o))
  rw [hemb, G0_apply, lanes_apply]
  refine Finset.sum_congr rfl fun w _ => ?_
  rw [sc0_apply, h23]

/-- An index of the array is in point `t`'s block of window 3 iff each coordinate is in the block's range. -/
theorem mem_blk3 (t : Fin cfg0.N) (i : S2x2x13.Idx) :
    i ∈ ((cfg0.win 3).blk t).view.set ↔ ∀ a : Fin 3, win0_3.index t a * S1x2x13.size a ≤ (i a).val ∧ (i a).val < win0_3.index t a * S1x2x13.size a + S1x2x13.size a := by
  show i ∈ ((View.whole main_v0_0).slice (win0_3.rect t)).set ↔ _
  rw [View.set_slice_whole, Rect.mem_set_unit]
  exact Iff.rfl

/-- Every index of output array `0` lies in the block its core writes at its last step. -/
theorem cover3 (i : S2x2x13.Idx) : ∃ t : Fin cfg0.N, (cfg0.win 3).flush t = true ∧ i ∈ ((cfg0.win 3).blk t).view.set := by
  have h0 : (i 0).val < 2 := (i 0).isLt
  have h1 : (i 1).val < 2 := (i 1).isLt
  have h2 : (i 2).val < 13 := (i 2).isLt
  refine ⟨lastOf ⟨(i 0).val, h0⟩, (flush0_3 _).mpr (by show (24 * (i 0).val + 23) % 24 = 23; omega), ?_⟩
  rw [mem_blk3]
  have hi := idx_out (lastOf ⟨(i 0).val, h0⟩)
  obtain ⟨e0, e1, e2⟩ := hi.1
  have e0' : win0_3.index (lastOf ⟨(i 0).val, h0⟩) (0 : Fin 3) = (i 0).val := by
    rw [e0]; show (24 * (i 0).val + 23) / 24 = (i 0).val; omega
  intro a
  match a with
  | ⟨0, _⟩ => show win0_3.index (lastOf ⟨(i 0).val, h0⟩) (0 : Fin 3) * 1 ≤ (i 0).val ∧ (i 0).val < win0_3.index (lastOf ⟨(i 0).val, h0⟩) (0 : Fin 3) * 1 + 1; omega
  | ⟨1, _⟩ => show win0_3.index (lastOf ⟨(i 0).val, h0⟩) (1 : Fin 3) * 2 ≤ (i 1).val ∧ (i 1).val < win0_3.index (lastOf ⟨(i 0).val, h0⟩) (1 : Fin 3) * 2 + 2; omega
  | ⟨2, _⟩ => show win0_3.index (lastOf ⟨(i 0).val, h0⟩) (2 : Fin 3) * 13 ≤ (i 2).val ∧ (i 2).val < win0_3.index (lastOf ⟨(i 0).val, h0⟩) (2 : Fin 3) * 13 + 13; omega

/-- Output array `0` after the run. -/
theorem final3 : (dats m 0 c).arrAt 3 cfg0.N = G0 m c :=
  (dats m 0 c).arrAt_eq_of_cover 3 (G0 m c) (flushed3_eq m c) (cover3)

/-! ## Output 1 (window 4) -/

/-- The row sums of array `1` of the step at point `k` (zero for a `k` past the grid, which no sum below reaches). -/
def M1 (k : ℕ) : S2x13x256.Idx → EReal :=
  if hk : k < cfg0.N then rowSum (P1 m c ⟨k, hk⟩) else fun _ => 0

/-- Accumulator `1` after point `n`, at an index: the zero plus the row sums of the points of `n`'s run up to `n`. -/
theorem sc1_apply (n : ℕ) (h : n < cfg0.N) (i : S2x13x256.Idx) :
    sc1 m c n h i = z0 + ∑ s ∈ Finset.range (n % 24 + 1), M1 m c (24 * (n / 24) + s) i := by
  have h' : 24 * (n / 24) + n % 24 < cfg0.N := by rw [Nat.div_add_mod]; exact h
  rw [sc1_fold m c n h h']
  exact Pipeline.accAt_add_apply _ _ (fun _ => z0) (M1 m c) (24 * (n / 24)) (n % 24)
    (fun hb i => by
      show z0 + rowSum (P1 m c ⟨_, hb⟩) i = z0 + M1 m c _ i
      unfold M1; rw [dif_pos hb])
    (fun k hk acc i _ _ => by
      show acc i + rowSum (P1 m c ⟨k, hk⟩) i = acc i + M1 m c k i
      unfold M1; rw [dif_pos hk])
    (n % 24) le_rfl h' i

/-- What output array `1` ends holding. -/
def G1 : S2x2x13.Idx → EReal := fun i =>
  ∑ w : Fin 256, (z0 + ∑ s ∈ Finset.range 24,
    M1 m c (24 * (i 0).val + s) (ix3 (⟨(i 1).val, (i 1).isLt⟩ : Fin 2) (⟨(i 2).val, (i 2).isLt⟩ : Fin 13) w))

theorem G1_apply (q b : Fin 2) (o : Fin 13) :
    G1 m c (ix3 q b o) = ∑ w : Fin 256, (z0 + ∑ s ∈ Finset.range 24, M1 m c (24 * q.val + s) (ix3 b o w)) := rfl

/-- What a write-back of window 4 writes is the block of `G1` it covers. -/
theorem flushed4_eq (t : Fin cfg0.N) (hf : (cfg0.win 4).flush t = true) :
    (dats m 0 c).flushed 4 t = ((cfg0.win 4).blk t).view.read (Elt Ideal) (G1 m c) := by
  have h23 : t.val % 24 = 23 := (flush0_4 t).mp hf
  have hN : cfg0.N = 48 := N_0
  have hi := idx_out t
  obtain ⟨e0, e1, e2⟩ := hi.2.1
  show (cfg0.win 4).cut (grid0.coords t) ((dats m 0 c).after 4 t) = _
  rw [after0_4, out4_last m c t h23]
  funext y
  obtain ⟨u, b, o, rfl⟩ : ∃ (u : Fin 1) (b : Fin 2) (o : Fin 13), y = ix3 u b o := ⟨y 0, y 1, y 2, eq_ix3 y⟩
  have hq : t.val / 24 < 2 := by have := t.isLt; omega
  have hemb : ((cfg0.win 4).blk t).view.emb (ix3 u b o) = ix3 (⟨t.val / 24, hq⟩ : Fin 2) b o := by
    funext a; apply Fin.ext
    match a with
    | ⟨0, _⟩ => show win0_4.index t (0 : Fin 3) * 1 + 1 * u.val = t.val / 24; have := u.isLt; omega
    | ⟨1, _⟩ => show win0_4.index t (1 : Fin 3) * 2 + 1 * b.val = b.val; omega
    | ⟨2, _⟩ => show win0_4.index t (2 : Fin 3) * 13 + 1 * o.val = o.val; omega
  show lanes (sc1 m c t.val t.isLt) (ix3 u b o) = G1 m c (((cfg0.win 4).blk t).view.emb (ix3 u b o))
  rw [hemb, G1_apply, lanes_apply]
  refine Finset.sum_congr rfl fun w _ => ?_
  rw [sc1_apply, h23]

/-- An index of the array is in point `t`'s block of window 4 iff each coordinate is in the block's range. -/
theorem mem_blk4 (t : Fin cfg0.N) (i : S2x2x13.Idx) :
    i ∈ ((cfg0.win 4).blk t).view.set ↔ ∀ a : Fin 3, win0_4.index t a * S1x2x13.size a ≤ (i a).val ∧ (i a).val < win0_4.index t a * S1x2x13.size a + S1x2x13.size a := by
  show i ∈ ((View.whole main_v0_1).slice (win0_4.rect t)).set ↔ _
  rw [View.set_slice_whole, Rect.mem_set_unit]
  exact Iff.rfl

/-- Every index of output array `1` lies in the block its core writes at its last step. -/
theorem cover4 (i : S2x2x13.Idx) : ∃ t : Fin cfg0.N, (cfg0.win 4).flush t = true ∧ i ∈ ((cfg0.win 4).blk t).view.set := by
  have h0 : (i 0).val < 2 := (i 0).isLt
  have h1 : (i 1).val < 2 := (i 1).isLt
  have h2 : (i 2).val < 13 := (i 2).isLt
  refine ⟨lastOf ⟨(i 0).val, h0⟩, (flush0_4 _).mpr (by show (24 * (i 0).val + 23) % 24 = 23; omega), ?_⟩
  rw [mem_blk4]
  have hi := idx_out (lastOf ⟨(i 0).val, h0⟩)
  obtain ⟨e0, e1, e2⟩ := hi.2.1
  have e0' : win0_4.index (lastOf ⟨(i 0).val, h0⟩) (0 : Fin 3) = (i 0).val := by
    rw [e0]; show (24 * (i 0).val + 23) / 24 = (i 0).val; omega
  intro a
  match a with
  | ⟨0, _⟩ => show win0_4.index (lastOf ⟨(i 0).val, h0⟩) (0 : Fin 3) * 1 ≤ (i 0).val ∧ (i 0).val < win0_4.index (lastOf ⟨(i 0).val, h0⟩) (0 : Fin 3) * 1 + 1; omega
  | ⟨1, _⟩ => show win0_4.index (lastOf ⟨(i 0).val, h0⟩) (1 : Fin 3) * 2 ≤ (i 1).val ∧ (i 1).val < win0_4.index (lastOf ⟨(i 0).val, h0⟩) (1 : Fin 3) * 2 + 2; omega
  | ⟨2, _⟩ => show win0_4.index (lastOf ⟨(i 0).val, h0⟩) (2 : Fin 3) * 13 ≤ (i 2).val ∧ (i 2).val < win0_4.index (lastOf ⟨(i 0).val, h0⟩) (2 : Fin 3) * 13 + 13; omega

/-- Output array `1` after the run. -/
theorem final4 : (dats m 0 c).arrAt 4 cfg0.N = G1 m c :=
  (dats m 0 c).arrAt_eq_of_cover 4 (G1 m c) (flushed4_eq m c) (cover4)

/-! ## Output 2 (window 5) -/

/-- The row sums of array `2` of the step at point `k` (zero for a `k` past the grid, which no sum below reaches). -/
def M2 (k : ℕ) : S2x13x256.Idx → EReal :=
  if hk : k < cfg0.N then rowSum (P2 m c ⟨k, hk⟩) else fun _ => 0

/-- Accumulator `2` after point `n`, at an index: the zero plus the row sums of the points of `n`'s run up to `n`. -/
theorem sc2_apply (n : ℕ) (h : n < cfg0.N) (i : S2x13x256.Idx) :
    sc2 m c n h i = z0 + ∑ s ∈ Finset.range (n % 24 + 1), M2 m c (24 * (n / 24) + s) i := by
  have h' : 24 * (n / 24) + n % 24 < cfg0.N := by rw [Nat.div_add_mod]; exact h
  rw [sc2_fold m c n h h']
  exact Pipeline.accAt_add_apply _ _ (fun _ => z0) (M2 m c) (24 * (n / 24)) (n % 24)
    (fun hb i => by
      show z0 + rowSum (P2 m c ⟨_, hb⟩) i = z0 + M2 m c _ i
      unfold M2; rw [dif_pos hb])
    (fun k hk acc i _ _ => by
      show acc i + rowSum (P2 m c ⟨k, hk⟩) i = acc i + M2 m c k i
      unfold M2; rw [dif_pos hk])
    (n % 24) le_rfl h' i

/-- What output array `2` ends holding. -/
def G2 : S2x2x13.Idx → EReal := fun i =>
  ∑ w : Fin 256, (z0 + ∑ s ∈ Finset.range 24,
    M2 m c (24 * (i 0).val + s) (ix3 (⟨(i 1).val, (i 1).isLt⟩ : Fin 2) (⟨(i 2).val, (i 2).isLt⟩ : Fin 13) w))

theorem G2_apply (q b : Fin 2) (o : Fin 13) :
    G2 m c (ix3 q b o) = ∑ w : Fin 256, (z0 + ∑ s ∈ Finset.range 24, M2 m c (24 * q.val + s) (ix3 b o w)) := rfl

/-- What a write-back of window 5 writes is the block of `G2` it covers. -/
theorem flushed5_eq (t : Fin cfg0.N) (hf : (cfg0.win 5).flush t = true) :
    (dats m 0 c).flushed 5 t = ((cfg0.win 5).blk t).view.read (Elt Ideal) (G2 m c) := by
  have h23 : t.val % 24 = 23 := (flush0_5 t).mp hf
  have hN : cfg0.N = 48 := N_0
  have hi := idx_out t
  obtain ⟨e0, e1, e2⟩ := hi.2.2.1
  show (cfg0.win 5).cut (grid0.coords t) ((dats m 0 c).after 5 t) = _
  rw [after0_5, out5_last m c t h23]
  funext y
  obtain ⟨u, b, o, rfl⟩ : ∃ (u : Fin 1) (b : Fin 2) (o : Fin 13), y = ix3 u b o := ⟨y 0, y 1, y 2, eq_ix3 y⟩
  have hq : t.val / 24 < 2 := by have := t.isLt; omega
  have hemb : ((cfg0.win 5).blk t).view.emb (ix3 u b o) = ix3 (⟨t.val / 24, hq⟩ : Fin 2) b o := by
    funext a; apply Fin.ext
    match a with
    | ⟨0, _⟩ => show win0_5.index t (0 : Fin 3) * 1 + 1 * u.val = t.val / 24; have := u.isLt; omega
    | ⟨1, _⟩ => show win0_5.index t (1 : Fin 3) * 2 + 1 * b.val = b.val; omega
    | ⟨2, _⟩ => show win0_5.index t (2 : Fin 3) * 13 + 1 * o.val = o.val; omega
  show lanes (sc2 m c t.val t.isLt) (ix3 u b o) = G2 m c (((cfg0.win 5).blk t).view.emb (ix3 u b o))
  rw [hemb, G2_apply, lanes_apply]
  refine Finset.sum_congr rfl fun w _ => ?_
  rw [sc2_apply, h23]

/-- An index of the array is in point `t`'s block of window 5 iff each coordinate is in the block's range. -/
theorem mem_blk5 (t : Fin cfg0.N) (i : S2x2x13.Idx) :
    i ∈ ((cfg0.win 5).blk t).view.set ↔ ∀ a : Fin 3, win0_5.index t a * S1x2x13.size a ≤ (i a).val ∧ (i a).val < win0_5.index t a * S1x2x13.size a + S1x2x13.size a := by
  show i ∈ ((View.whole main_v0_2).slice (win0_5.rect t)).set ↔ _
  rw [View.set_slice_whole, Rect.mem_set_unit]
  exact Iff.rfl

/-- Every index of output array `2` lies in the block its core writes at its last step. -/
theorem cover5 (i : S2x2x13.Idx) : ∃ t : Fin cfg0.N, (cfg0.win 5).flush t = true ∧ i ∈ ((cfg0.win 5).blk t).view.set := by
  have h0 : (i 0).val < 2 := (i 0).isLt
  have h1 : (i 1).val < 2 := (i 1).isLt
  have h2 : (i 2).val < 13 := (i 2).isLt
  refine ⟨lastOf ⟨(i 0).val, h0⟩, (flush0_5 _).mpr (by show (24 * (i 0).val + 23) % 24 = 23; omega), ?_⟩
  rw [mem_blk5]
  have hi := idx_out (lastOf ⟨(i 0).val, h0⟩)
  obtain ⟨e0, e1, e2⟩ := hi.2.2.1
  have e0' : win0_5.index (lastOf ⟨(i 0).val, h0⟩) (0 : Fin 3) = (i 0).val := by
    rw [e0]; show (24 * (i 0).val + 23) / 24 = (i 0).val; omega
  intro a
  match a with
  | ⟨0, _⟩ => show win0_5.index (lastOf ⟨(i 0).val, h0⟩) (0 : Fin 3) * 1 ≤ (i 0).val ∧ (i 0).val < win0_5.index (lastOf ⟨(i 0).val, h0⟩) (0 : Fin 3) * 1 + 1; omega
  | ⟨1, _⟩ => show win0_5.index (lastOf ⟨(i 0).val, h0⟩) (1 : Fin 3) * 2 ≤ (i 1).val ∧ (i 1).val < win0_5.index (lastOf ⟨(i 0).val, h0⟩) (1 : Fin 3) * 2 + 2; omega
  | ⟨2, _⟩ => show win0_5.index (lastOf ⟨(i 0).val, h0⟩) (2 : Fin 3) * 13 ≤ (i 2).val ∧ (i 2).val < win0_5.index (lastOf ⟨(i 0).val, h0⟩) (2 : Fin 3) * 13 + 13; omega

/-- Output array `2` after the run. -/
theorem final5 : (dats m 0 c).arrAt 5 cfg0.N = G2 m c :=
  (dats m 0 c).arrAt_eq_of_cover 5 (G2 m c) (flushed5_eq m c) (cover5)

/-! ## Output 3 (window 6) -/

/-- The row sums of array `3` of the step at point `k` (zero for a `k` past the grid, which no sum below reaches). -/
def M3 (k : ℕ) : S2x13x256.Idx → EReal :=
  if hk : k < cfg0.N then rowSum (P3 m c ⟨k, hk⟩) else fun _ => 0

/-- Accumulator `3` after point `n`, at an index: the zero plus the row sums of the points of `n`'s run up to `n`. -/
theorem sc3_apply (n : ℕ) (h : n < cfg0.N) (i : S2x13x256.Idx) :
    sc3 m c n h i = z0 + ∑ s ∈ Finset.range (n % 24 + 1), M3 m c (24 * (n / 24) + s) i := by
  have h' : 24 * (n / 24) + n % 24 < cfg0.N := by rw [Nat.div_add_mod]; exact h
  rw [sc3_fold m c n h h']
  exact Pipeline.accAt_add_apply _ _ (fun _ => z0) (M3 m c) (24 * (n / 24)) (n % 24)
    (fun hb i => by
      show z0 + rowSum (P3 m c ⟨_, hb⟩) i = z0 + M3 m c _ i
      unfold M3; rw [dif_pos hb])
    (fun k hk acc i _ _ => by
      show acc i + rowSum (P3 m c ⟨k, hk⟩) i = acc i + M3 m c k i
      unfold M3; rw [dif_pos hk])
    (n % 24) le_rfl h' i

/-- What output array `3` ends holding. -/
def G3 : S2x2x13.Idx → EReal := fun i =>
  ∑ w : Fin 256, (z0 + ∑ s ∈ Finset.range 24,
    M3 m c (24 * (i 0).val + s) (ix3 (⟨(i 1).val, (i 1).isLt⟩ : Fin 2) (⟨(i 2).val, (i 2).isLt⟩ : Fin 13) w))

theorem G3_apply (q b : Fin 2) (o : Fin 13) :
    G3 m c (ix3 q b o) = ∑ w : Fin 256, (z0 + ∑ s ∈ Finset.range 24, M3 m c (24 * q.val + s) (ix3 b o w)) := rfl

/-- What a write-back of window 6 writes is the block of `G3` it covers. -/
theorem flushed6_eq (t : Fin cfg0.N) (hf : (cfg0.win 6).flush t = true) :
    (dats m 0 c).flushed 6 t = ((cfg0.win 6).blk t).view.read (Elt Ideal) (G3 m c) := by
  have h23 : t.val % 24 = 23 := (flush0_6 t).mp hf
  have hN : cfg0.N = 48 := N_0
  have hi := idx_out t
  obtain ⟨e0, e1, e2⟩ := hi.2.2.2.1
  show (cfg0.win 6).cut (grid0.coords t) ((dats m 0 c).after 6 t) = _
  rw [after0_6, out6_last m c t h23]
  funext y
  obtain ⟨u, b, o, rfl⟩ : ∃ (u : Fin 1) (b : Fin 2) (o : Fin 13), y = ix3 u b o := ⟨y 0, y 1, y 2, eq_ix3 y⟩
  have hq : t.val / 24 < 2 := by have := t.isLt; omega
  have hemb : ((cfg0.win 6).blk t).view.emb (ix3 u b o) = ix3 (⟨t.val / 24, hq⟩ : Fin 2) b o := by
    funext a; apply Fin.ext
    match a with
    | ⟨0, _⟩ => show win0_6.index t (0 : Fin 3) * 1 + 1 * u.val = t.val / 24; have := u.isLt; omega
    | ⟨1, _⟩ => show win0_6.index t (1 : Fin 3) * 2 + 1 * b.val = b.val; omega
    | ⟨2, _⟩ => show win0_6.index t (2 : Fin 3) * 13 + 1 * o.val = o.val; omega
  show lanes (sc3 m c t.val t.isLt) (ix3 u b o) = G3 m c (((cfg0.win 6).blk t).view.emb (ix3 u b o))
  rw [hemb, G3_apply, lanes_apply]
  refine Finset.sum_congr rfl fun w _ => ?_
  rw [sc3_apply, h23]

/-- An index of the array is in point `t`'s block of window 6 iff each coordinate is in the block's range. -/
theorem mem_blk6 (t : Fin cfg0.N) (i : S2x2x13.Idx) :
    i ∈ ((cfg0.win 6).blk t).view.set ↔ ∀ a : Fin 3, win0_6.index t a * S1x2x13.size a ≤ (i a).val ∧ (i a).val < win0_6.index t a * S1x2x13.size a + S1x2x13.size a := by
  show i ∈ ((View.whole main_v0_3).slice (win0_6.rect t)).set ↔ _
  rw [View.set_slice_whole, Rect.mem_set_unit]
  exact Iff.rfl

/-- Every index of output array `3` lies in the block its core writes at its last step. -/
theorem cover6 (i : S2x2x13.Idx) : ∃ t : Fin cfg0.N, (cfg0.win 6).flush t = true ∧ i ∈ ((cfg0.win 6).blk t).view.set := by
  have h0 : (i 0).val < 2 := (i 0).isLt
  have h1 : (i 1).val < 2 := (i 1).isLt
  have h2 : (i 2).val < 13 := (i 2).isLt
  refine ⟨lastOf ⟨(i 0).val, h0⟩, (flush0_6 _).mpr (by show (24 * (i 0).val + 23) % 24 = 23; omega), ?_⟩
  rw [mem_blk6]
  have hi := idx_out (lastOf ⟨(i 0).val, h0⟩)
  obtain ⟨e0, e1, e2⟩ := hi.2.2.2.1
  have e0' : win0_6.index (lastOf ⟨(i 0).val, h0⟩) (0 : Fin 3) = (i 0).val := by
    rw [e0]; show (24 * (i 0).val + 23) / 24 = (i 0).val; omega
  intro a
  match a with
  | ⟨0, _⟩ => show win0_6.index (lastOf ⟨(i 0).val, h0⟩) (0 : Fin 3) * 1 ≤ (i 0).val ∧ (i 0).val < win0_6.index (lastOf ⟨(i 0).val, h0⟩) (0 : Fin 3) * 1 + 1; omega
  | ⟨1, _⟩ => show win0_6.index (lastOf ⟨(i 0).val, h0⟩) (1 : Fin 3) * 2 ≤ (i 1).val ∧ (i 1).val < win0_6.index (lastOf ⟨(i 0).val, h0⟩) (1 : Fin 3) * 2 + 2; omega
  | ⟨2, _⟩ => show win0_6.index (lastOf ⟨(i 0).val, h0⟩) (2 : Fin 3) * 13 ≤ (i 2).val ∧ (i 2).val < win0_6.index (lastOf ⟨(i 0).val, h0⟩) (2 : Fin 3) * 13 + 13; omega

/-- Output array `3` after the run. -/
theorem final6 : (dats m 0 c).arrAt 6 cfg0.N = G3 m c :=
  (dats m 0 c).arrAt_eq_of_cover 6 (G3 m c) (flushed6_eq m c) (cover6)

/-! ## Output 4 (window 7) -/

/-- The row sums of array `4` of the step at point `k` (zero for a `k` past the grid, which no sum below reaches). -/
def M4 (k : ℕ) : S2x13x256.Idx → EReal :=
  if hk : k < cfg0.N then rowSum (P4 m c ⟨k, hk⟩) else fun _ => 0

/-- Accumulator `4` after point `n`, at an index: the zero plus the row sums of the points of `n`'s run up to `n`. -/
theorem sc4_apply (n : ℕ) (h : n < cfg0.N) (i : S2x13x256.Idx) :
    sc4 m c n h i = z0 + ∑ s ∈ Finset.range (n % 24 + 1), M4 m c (24 * (n / 24) + s) i := by
  have h' : 24 * (n / 24) + n % 24 < cfg0.N := by rw [Nat.div_add_mod]; exact h
  rw [sc4_fold m c n h h']
  exact Pipeline.accAt_add_apply _ _ (fun _ => z0) (M4 m c) (24 * (n / 24)) (n % 24)
    (fun hb i => by
      show z0 + rowSum (P4 m c ⟨_, hb⟩) i = z0 + M4 m c _ i
      unfold M4; rw [dif_pos hb])
    (fun k hk acc i _ _ => by
      show acc i + rowSum (P4 m c ⟨k, hk⟩) i = acc i + M4 m c k i
      unfold M4; rw [dif_pos hk])
    (n % 24) le_rfl h' i

/-- What output array `4` ends holding. -/
def G4 : S2x2x13.Idx → EReal := fun i =>
  ∑ w : Fin 256, (z0 + ∑ s ∈ Finset.range 24,
    M4 m c (24 * (i 0).val + s) (ix3 (⟨(i 1).val, (i 1).isLt⟩ : Fin 2) (⟨(i 2).val, (i 2).isLt⟩ : Fin 13) w))

theorem G4_apply (q b : Fin 2) (o : Fin 13) :
    G4 m c (ix3 q b o) = ∑ w : Fin 256, (z0 + ∑ s ∈ Finset.range 24, M4 m c (24 * q.val + s) (ix3 b o w)) := rfl

/-- What a write-back of window 7 writes is the block of `G4` it covers. -/
theorem flushed7_eq (t : Fin cfg0.N) (hf : (cfg0.win 7).flush t = true) :
    (dats m 0 c).flushed 7 t = ((cfg0.win 7).blk t).view.read (Elt Ideal) (G4 m c) := by
  have h23 : t.val % 24 = 23 := (flush0_7 t).mp hf
  have hN : cfg0.N = 48 := N_0
  have hi := idx_out t
  obtain ⟨e0, e1, e2⟩ := hi.2.2.2.2
  show (cfg0.win 7).cut (grid0.coords t) ((dats m 0 c).after 7 t) = _
  rw [after0_7, out7_last m c t h23]
  funext y
  obtain ⟨u, b, o, rfl⟩ : ∃ (u : Fin 1) (b : Fin 2) (o : Fin 13), y = ix3 u b o := ⟨y 0, y 1, y 2, eq_ix3 y⟩
  have hq : t.val / 24 < 2 := by have := t.isLt; omega
  have hemb : ((cfg0.win 7).blk t).view.emb (ix3 u b o) = ix3 (⟨t.val / 24, hq⟩ : Fin 2) b o := by
    funext a; apply Fin.ext
    match a with
    | ⟨0, _⟩ => show win0_7.index t (0 : Fin 3) * 1 + 1 * u.val = t.val / 24; have := u.isLt; omega
    | ⟨1, _⟩ => show win0_7.index t (1 : Fin 3) * 2 + 1 * b.val = b.val; omega
    | ⟨2, _⟩ => show win0_7.index t (2 : Fin 3) * 13 + 1 * o.val = o.val; omega
  show lanes (sc4 m c t.val t.isLt) (ix3 u b o) = G4 m c (((cfg0.win 7).blk t).view.emb (ix3 u b o))
  rw [hemb, G4_apply, lanes_apply]
  refine Finset.sum_congr rfl fun w _ => ?_
  rw [sc4_apply, h23]

/-- An index of the array is in point `t`'s block of window 7 iff each coordinate is in the block's range. -/
theorem mem_blk7 (t : Fin cfg0.N) (i : S2x2x13.Idx) :
    i ∈ ((cfg0.win 7).blk t).view.set ↔ ∀ a : Fin 3, win0_7.index t a * S1x2x13.size a ≤ (i a).val ∧ (i a).val < win0_7.index t a * S1x2x13.size a + S1x2x13.size a := by
  show i ∈ ((View.whole main_v0_4).slice (win0_7.rect t)).set ↔ _
  rw [View.set_slice_whole, Rect.mem_set_unit]
  exact Iff.rfl

/-- Every index of output array `4` lies in the block its core writes at its last step. -/
theorem cover7 (i : S2x2x13.Idx) : ∃ t : Fin cfg0.N, (cfg0.win 7).flush t = true ∧ i ∈ ((cfg0.win 7).blk t).view.set := by
  have h0 : (i 0).val < 2 := (i 0).isLt
  have h1 : (i 1).val < 2 := (i 1).isLt
  have h2 : (i 2).val < 13 := (i 2).isLt
  refine ⟨lastOf ⟨(i 0).val, h0⟩, (flush0_7 _).mpr (by show (24 * (i 0).val + 23) % 24 = 23; omega), ?_⟩
  rw [mem_blk7]
  have hi := idx_out (lastOf ⟨(i 0).val, h0⟩)
  obtain ⟨e0, e1, e2⟩ := hi.2.2.2.2
  have e0' : win0_7.index (lastOf ⟨(i 0).val, h0⟩) (0 : Fin 3) = (i 0).val := by
    rw [e0]; show (24 * (i 0).val + 23) / 24 = (i 0).val; omega
  intro a
  match a with
  | ⟨0, _⟩ => show win0_7.index (lastOf ⟨(i 0).val, h0⟩) (0 : Fin 3) * 1 ≤ (i 0).val ∧ (i 0).val < win0_7.index (lastOf ⟨(i 0).val, h0⟩) (0 : Fin 3) * 1 + 1; omega
  | ⟨1, _⟩ => show win0_7.index (lastOf ⟨(i 0).val, h0⟩) (1 : Fin 3) * 2 ≤ (i 1).val ∧ (i 1).val < win0_7.index (lastOf ⟨(i 0).val, h0⟩) (1 : Fin 3) * 2 + 2; omega
  | ⟨2, _⟩ => show win0_7.index (lastOf ⟨(i 0).val, h0⟩) (2 : Fin 3) * 13 ≤ (i 2).val ∧ (i 2).val < win0_7.index (lastOf ⟨(i 0).val, h0⟩) (2 : Fin 3) * 13 + 13; omega

/-- Output array `4` after the run. -/
theorem final7 : (dats m 0 c).arrAt 7 cfg0.N = G4 m c :=
  (dats m 0 c).arrAt_eq_of_cover 7 (G4 m c) (flushed7_eq m c) (cover7)

end Cert.KernelIdeal.Final

end
-- ==== Proof.Tail.lean ====
/-
  The dice arithmetic on the five `[2,13]` arrays of sums, as one function.

  With `A` the sums of prediction × one-hot, `B` the sums of squared predictions of the first prediction array,
  `C`, `D` the same for the second, and `E` the sums of the one-hot array:
    dice(A, B, E)(b, o) = 2·A / (B + E + ε),    mean over the 13 organs,    the two means added,
    loss = (∑_b (2 − that)) / 2.
  Both programs end with exactly these host operations on their five arrays, so the certificate never opens them:
  it proves the five arrays equal and applies this one function to both sides.
-/
import proofs.«128460_j80470507258049_2_alg».proof.KernelIdeal
import proofs.«128460_j80470507258049_2_alg».proof.Proof.Gen.KernelIdeal
import Idealize.ShloMosaic.PureOps.Ideal

noncomputable section

open Idealize.ShloMosaic

namespace Cert.KernelIdeal.Tail

open Cert.KernelIdeal Cert.KernelIdeal.Gen

/-- `2·A / (B + E + ε)`, entry by entry. -/
def dice (A B E : FVec Ideal S2x13 .f32) : FVec Ideal S2x13 .f32 :=
  Host.divf (F := Ideal)
    (mulf (broadcastInDim S2x13 ![] bcast_S_S2x13 (constant (F := Ideal) S_ .f32 0x40000000#32)) A)
    (addf (addf B E) (broadcastInDim S2x13 ![] bcast_S_S2x13 (constant (F := Ideal) S_ .f32 0x3727C5AC#32)))

/-- The mean over the thirteen organs: the sum along axis 1 divided by 13. -/
def organMean (X : FVec Ideal S2x13 .f32) : FVec Ideal S2 .f32 :=
  Host.divf (F := Ideal)
    (Host.reduceAdd (F := Ideal) X (constant (F := Ideal) S_ .f32 0x00000000#32) reducesTo_S2x13_S2_d1 h_S_)
    (broadcastInDim S2 ![] bcast_S_S2 (constant (F := Ideal) S_ .f32 0x41500000#32))

/-- The loss: the mean over the batch of `2 − (mean dice of the first array + mean dice of the second)`. -/
def tail (A B C D E : FVec Ideal S2x13 .f32) : FVec Ideal S_ .f32 :=
  Host.divf (F := Ideal)
    (Host.reduceAdd (F := Ideal)
      (subf (broadcastInDim S2 ![] bcast_S_S2 (constant (F := Ideal) S_ .f32 0x40000000#32))
        (addf (organMean (dice A B E)) (organMean (dice C D E))))
      (constant (F := Ideal) S_ .f32 0x00000000#32) reducesTo_S2_S_d0 h_S_)
    (constant (F := Ideal) S_ .f32 0x40000000#32)

/-- The sum of a `[2,2,13]` output array over its leading (core) axis, from zero. -/
def coreSum (G : FVec Ideal S2x2x13 .f32) : FVec Ideal S2x13 .f32 :=
  Host.reduceAdd (F := Ideal) G (constant (F := Ideal) S_ .f32 0x00000000#32) reducesTo_S2x2x13_S2x13_d0 h_S_

end Cert.KernelIdeal.Tail

end
-- ==== Proof.KTail.lean ====
/-
  The host operations after the region, applied to the output arrays the region leaves.

  After the region the five output arrays hold `G₀ … G₄`; the 44 host operations that follow sum each over its two
  cores and apply the dice arithmetic (`tail`), giving the program's one result.
-/
import proofs.«128460_j80470507258049_2_alg».proof.Proof.Final
import proofs.«128460_j80470507258049_2_alg».proof.Proof.Tail
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.KTail

open Cert.KernelIdeal Cert.KernelIdeal.Gen Cert.KernelIdeal.GenP Cert.KernelIdeal.Final Cert.KernelIdeal.Tail

variable (m : (ℓ : Loc nD τ sig) → Buf (Elt Ideal) ℓ)

/-- The loss the kernel program computes, as a function of its argument arrays. -/
def result (c : Dev nD) : FVec Ideal S_ .f32 :=
  tail (coreSum (G0 m c)) (coreSum (G1 m c)) (coreSum (G2 m c)) (coreSum (G3 m c)) (coreSum (G4 m c))

set_option maxHeartbeats 4000000 in
/-- The host operations after the region, run from the output arrays the region left, give `result`. -/
theorem tail_eq (c : Dev nD) :
    Pipeline.afterTail₀ cfgs (dats m) 0 (V0 m) [hostOps1] c main_v28 = result m c := by
  unfold Pipeline.afterTail₀
  show StableHlo.after hostOps1 _ (Proc.devRef .tc main_v28) = _
  after_results_simp
  have e0 : Pipeline.withArrays (cfgs 0).spec c (V0 m c) (fun w => (dats m 0 c).arrAt w (cfgs 0).N) (Proc.devRef .tc main_v0_0) = G0 m c :=
    (Pipeline.withArrays_arr spec0 launch0.win.arr_inj c _ _ 3).trans (final3 m c)
  have e1 : Pipeline.withArrays (cfgs 0).spec c (V0 m c) (fun w => (dats m 0 c).arrAt w (cfgs 0).N) (Proc.devRef .tc main_v0_1) = G1 m c :=
    (Pipeline.withArrays_arr spec0 launch0.win.arr_inj c _ _ 4).trans (final4 m c)
  have e2 : Pipeline.withArrays (cfgs 0).spec c (V0 m c) (fun w => (dats m 0 c).arrAt w (cfgs 0).N) (Proc.devRef .tc main_v0_2) = G2 m c :=
    (Pipeline.withArrays_arr spec0 launch0.win.arr_inj c _ _ 5).trans (final5 m c)
  have e3 : Pipeline.withArrays (cfgs 0).spec c (V0 m c) (fun w => (dats m 0 c).arrAt w (cfgs 0).N) (Proc.devRef .tc main_v0_3) = G3 m c :=
    (Pipeline.withArrays_arr spec0 launch0.win.arr_inj c _ _ 6).trans (final6 m c)
  have e4 : Pipeline.withArrays (cfgs 0).spec c (V0 m c) (fun w => (dats m 0 c).arrAt w (cfgs 0).N) (Proc.devRef .tc main_v0_4) = G4 m c :=
    (Pipeline.withArrays_arr spec0 launch0.win.arr_inj c _ _ 7).trans (final7 m c)
  rw [e0, e1, e2, e3, e4]
  rfl

end Cert.KernelIdeal.KTail

end
-- ==== Proof.KRun.lean ====
/-
  The kernel program's run, read: its result buffer ends at `result` of the argument arrays, which end unchanged.
-/
import proofs.«128460_j80470507258049_2_alg».proof.Proof.KTail
import proofs.«128460_j80470507258049_2_alg».proof.Proof.FramePRun

set_option maxRecDepth 16384

noncomputable section

open Idealize.ShloMosaic Idealize.ShloMosaic.TcCoe Idealize.SL.Sem
open Idealize.ShloMosaic.Pipeline (Dat)

namespace Cert.KernelIdeal.KRun

open Cert.KernelIdeal Cert.KernelIdeal.Gen Cert.KernelIdeal.GenP Cert.KernelIdeal.KTail

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v28) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h c).2 main_v28 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KRun

end
-- ==== Proof.ProdAt.lean ====
/-
  The five arrays a grid step sums, read at an index over the extended reals.

  For batch `b`, organ `o`, row `h`, lane `w`, with `x0`, `x1` the step's blocks of the two prediction arrays
  (`[2,14,1,256,256]`), `x2` its block of the labels (`[2,1,256,256]`), `chan o = 1 + o` the organ's channel:
    prod0 = x0 (b, chan o, 0, h, w) · hot (x2 (b, 0, h, w)) o       prod1 = x0 (…)²
    prod2 = x1 (b, chan o, 0, h, w) · hot (x2 (b, 0, h, w)) o       prod3 = x1 (…)²        prod4 = hot (x2 (b, 0, h, w)) o
-/
import proofs.«128460_j80470507258049_2_alg».proof.Proof.Step
import proofs.«128460_j80470507258049_2_alg».proof.Proof.PayAt

noncomputable section

open Idealize.ShloMosaic Idealize.ShloMosaic.ValueIdx

namespace Cert.KernelIdeal.ProdAt

open Cert.KernelIdeal Cert.KernelIdeal.Gen Cert.KernelIdeal.Step Cert.KernelIdeal.PayAt

/-- The channel of organ `o`: channel 0 is the background, organ `o` is channel `1 + o`. -/
def chan (o : Fin 13) : Fin 14 := ⟨1 + o.val, by have := o.isLt; omega⟩

/-- Channels 1…13 of a block: entry `(b, o, 0, h, w)` of the slab is entry `(b, chan o, 0, h, w)` of the block. -/
theorem slab_apply (x : Vec Ideal S2x14x1x256x256 .f32) (b : Fin 2) (o : Fin 13) (h w : Fin 256) :
    slab x (ix5 b o (0 : Fin 1) h w) = x (ix5 b (chan o) (0 : Fin 1) h w) := by
  unfold slab
  show x _ = x _
  refine congrArg x (funext fun a => Fin.ext ?_)
  match a with
  | ⟨0, _⟩ => show 0 + 1 * b.val = b.val; omega
  | ⟨1, _⟩ => show 1 + 1 * o.val = 1 + o.val; omega
  | ⟨2, _⟩ => show 0 + 1 * 0 = 0; rfl
  | ⟨3, _⟩ => show 0 + 1 * h.val = h.val; omega
  | ⟨4, _⟩ => show 0 + 1 * w.val = w.val; omega

theorem prod0_apply (x0 : Vec Ideal S2x14x1x256x256 .f32) (x2 : Vec Ideal S2x1x256x256 .i32)
    (b : Fin 2) (o : Fin 13) (h w : Fin 256) :
    prod0 x0 x2 (ix4 b o h w) = x0 (ix5 b (chan o) (0 : Fin 1) h w) * hot (x2 (ix4 b (0 : Fin 1) h w)) o := by
  unfold prod0
  rw [mulf_apply, pay16_apply, pay18_apply, slab_apply]

theorem prod1_apply (x0 : Vec Ideal S2x14x1x256x256 .f32) (b : Fin 2) (o : Fin 13) (h w : Fin 256) :
    prod1 x0 (ix4 b o h w) = x0 (ix5 b (chan o) (0 : Fin 1) h w) * x0 (ix5 b (chan o) (0 : Fin 1) h w) := by
  unfold prod1
  rw [mulf_apply, pay16_apply, slab_apply]

theorem prod2_apply (x1 : Vec Ideal S2x14x1x256x256 .f32) (x2 : Vec Ideal S2x1x256x256 .i32)
    (b : Fin 2) (o : Fin 13) (h w : Fin 256) :
    prod2 x1 x2 (ix4 b o h w) = x1 (ix5 b (chan o) (0 : Fin 1) h w) * hot (x2 (ix4 b (0 : Fin 1) h w)) o := by
  unfold prod2
  rw [mulf_apply, pay17_apply, pay18_apply, slab_apply]

theorem prod3_apply (x1 : Vec Ideal S2x14x1x256x256 .f32) (b : Fin 2) (o : Fin 13) (h w : Fin 256) :
    prod3 x1 (ix4 b o h w) = x1 (ix5 b (chan o) (0 : Fin 1) h w) * x1 (ix5 b (chan o) (0 : Fin 1) h w) := by
  unfold prod3
  rw [mulf_apply, pay17_apply, slab_apply]

theorem prod4_apply (x2 : Vec Ideal S2x1x256x256 .i32) (b : Fin 2) (o : Fin 13) (h w : Fin 256) :
    prod4 x2 (ix4 b o h w) = hot (x2 (ix4 b (0 : Fin 1) h w)) o := by
  unfold prod4
  rw [pay18_apply]

end Cert.KernelIdeal.ProdAt

end
-- ==== Proof.Blocks.lean ====
/-
  The input blocks of a grid point are the point's depth slice of the argument arrays.

  The grid is `2 × 24` (core, step), walked in row-major order, and the index maps send point `(q, s)` to depth
  `24·q + s`: point number `t` reads depth slice `t`. Entry `(b, ch, 0, h, w)` of a prediction block at point `t` is
  entry `(b, ch, t, h, w)` of the prediction array, and entry `(b, 0, h, w)` of the label block is entry `(b, t, h, w)`
  of the label array.
-/
import proofs.«128460_j80470507258049_2_alg».proof.Proof.FramePDefs
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ) (c : Dev nD)

/-- The input windows' block indices at point `t`: depth `t`, zero elsewhere. -/
theorem idx_in : ∀ t : Fin cfg0.N,
    (win0_0.index t (0 : Fin 5) = 0 ∧ win0_0.index t (1 : Fin 5) = 0 ∧ win0_0.index t (2 : Fin 5) = t.val
      ∧ win0_0.index t (3 : Fin 5) = 0 ∧ win0_0.index t (4 : Fin 5) = 0)
    ∧ (win0_1.index t (0 : Fin 5) = 0 ∧ win0_1.index t (1 : Fin 5) = 0 ∧ win0_1.index t (2 : Fin 5) = t.val
      ∧ win0_1.index t (3 : Fin 5) = 0 ∧ win0_1.index t (4 : Fin 5) = 0)
    ∧ (win0_2.index t (0 : Fin 4) = 0 ∧ win0_2.index t (1 : Fin 4) = t.val ∧ win0_2.index t (2 : Fin 4) = 0
      ∧ win0_2.index t (3 : Fin 4) = 0) :=
  (by decide +kernel : ∀ t : Fin grid0.N, _)

/-- The depth slice a point reads, as a depth index. -/
def depth (t : Fin cfg0.N) : Fin 48 := ⟨t.val, lt_of_lt_of_eq t.isLt (show cfg0.N = 48 from N_0)⟩

theorem blk0_apply (t : Fin cfg0.N) (b : Fin 2) (ch : Fin 14) (h w : Fin 256) :
    (iblk m c 0 t : Vec F S2x14x1x256x256 .f32) (ix5 b ch (0 : Fin 1) h w)
      = m ((c : Thread nD τ).loc main_arg0) (ix5 b ch (depth t) h w) := by
  obtain ⟨⟨e0, e1, e2, e3, e4⟩, -, -⟩ := idx_in t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_0.index t (0 : Fin 5) * 2 + 1 * b.val = b.val; omega
  | ⟨1, _⟩ => show win0_0.index t (1 : Fin 5) * 14 + 1 * ch.val = ch.val; omega
  | ⟨2, _⟩ => show win0_0.index t (2 : Fin 5) * 1 + 1 * 0 = t.val; omega
  | ⟨3, _⟩ => show win0_0.index t (3 : Fin 5) * 256 + 1 * h.val = h.val; omega
  | ⟨4, _⟩ => show win0_0.index t (4 : Fin 5) * 256 + 1 * w.val = w.val; omega

theorem blk1_apply (t : Fin cfg0.N) (b : Fin 2) (ch : Fin 14) (h w : Fin 256) :
    (iblk m c 1 t : Vec F S2x14x1x256x256 .f32) (ix5 b ch (0 : Fin 1) h w)
      = m ((c : Thread nD τ).loc main_arg1) (ix5 b ch (depth t) h w) := by
  obtain ⟨-, ⟨e0, e1, e2, e3, e4⟩, -⟩ := idx_in t
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_1.index t (0 : Fin 5) * 2 + 1 * b.val = b.val; omega
  | ⟨1, _⟩ => show win0_1.index t (1 : Fin 5) * 14 + 1 * ch.val = ch.val; omega
  | ⟨2, _⟩ => show win0_1.index t (2 : Fin 5) * 1 + 1 * 0 = t.val; omega
  | ⟨3, _⟩ => show win0_1.index t (3 : Fin 5) * 256 + 1 * h.val = h.val; omega
  | ⟨4, _⟩ => show win0_1.index t (4 : Fin 5) * 256 + 1 * w.val = w.val; omega

theorem blk2_apply (t : Fin cfg0.N) (b : Fin 2) (h w : Fin 256) :
    (iblk m c 2 t : Vec F S2x1x256x256 .i32) (ix4 b (0 : Fin 1) h w)
      = m ((c : Thread nD τ).loc main_arg2) (ix4 b (depth t) h w) := by
  obtain ⟨-, -, ⟨e0, e1, e2, e3⟩⟩ := idx_in t
  unfold iblk
  rw [View.read_apply]
  show V m c main_arg2 _ = m ((c : Thread nD τ).loc main_arg2) _
  rw [V_main_arg2]
  refine congrArg (m ((c : Thread nD τ).loc main_arg2)) (funext fun a => Fin.ext ?_)
  match a with
  | ⟨0, _⟩ => show win0_2.index t (0 : Fin 4) * 2 + 1 * b.val = b.val; omega
  | ⟨1, _⟩ => show win0_2.index t (1 : Fin 4) * 1 + 1 * 0 = t.val; omega
  | ⟨2, _⟩ => show win0_2.index t (2 : Fin 4) * 256 + 1 * h.val = h.val; omega
  | ⟨3, _⟩ => show win0_2.index t (3 : Fin 4) * 256 + 1 * w.val = w.val; omega

end Cert.KernelIdeal.Blocks

end
-- ==== Proof.Sums.lean ====
/-
  The row sums of a step's five arrays in terms of the argument arrays, over the extended reals.

  At point `k` (depth slice `k`), batch `b`, organ `o`, lane `w`:
      M₀ k (b, o, w) = ∑_h  pred₁ (b, chan o, k, h, w) · hot (label (b, k, h, w)) o,
  and likewise the square of `pred₁`, the same two for `pred₂`, and the one-hot value alone.
-/
import proofs.«128460_j80470507258049_2_alg».proof.Proof.Final
import proofs.«128460_j80470507258049_2_alg».proof.Proof.ProdAt
import proofs.«128460_j80470507258049_2_alg».proof.Proof.Blocks

set_option maxRecDepth 16384

noncomputable section

open Idealize.ShloMosaic Idealize.ShloMosaic.TcCoe Idealize.SL.Sem Idealize.ShloMosaic.ValueIdx

namespace Cert.KernelIdeal.Sums

open Cert.KernelIdeal Cert.KernelIdeal.Gen Cert.KernelIdeal.GenP Cert.KernelIdeal.Step Cert.KernelIdeal.Accum Cert.KernelIdeal.PayAt
open Cert.KernelIdeal.ProdAt Cert.KernelIdeal.Blocks Cert.KernelIdeal.Final

variable (m : (ℓ : Loc nD τ sig) → Buf (Elt Ideal) ℓ) (c : Dev nD)

/-- The argument arrays of core `c`, as arrays of extended reals and of 32-bit labels. -/
def pred1 : S2x14x48x256x256.Idx → EReal := m ((c : Thread nD τ).loc main_arg0)
def pred2 : S2x14x48x256x256.Idx → EReal := m ((c : Thread nD τ).loc main_arg1)
def labels : S2x48x256x256.Idx → BitVec 32 := m ((c : Thread nD τ).loc main_arg2)

theorem M0_apply (k : ℕ) (hk : k < 48) (b : Fin 2) (o : Fin 13) (w : Fin 256) :
    M0 m c k (ix3 b o w) = ∑ h : Fin 256, pred1 m c (ix5 b (chan o) ⟨k, hk⟩ h w) * hot (labels m c (ix4 b ⟨k, hk⟩ h w)) o := by
  have hk' : k < cfg0.N := lt_of_lt_of_eq hk (show cfg0.N = 48 from N_0).symm
  unfold M0
  rw [dif_pos hk']
  unfold rowSum
  refine (sum_rows _ _ _ _ b o w).trans ?_
  refine Finset.sum_congr rfl fun h _ => ?_
  unfold P0
  rw [prod0_apply, blk0_apply, blk2_apply]
  rfl

theorem M1_apply (k : ℕ) (hk : k < 48) (b : Fin 2) (o : Fin 13) (w : Fin 256) :
    M1 m c k (ix3 b o w) = ∑ h : Fin 256, pred1 m c (ix5 b (chan o) ⟨k, hk⟩ h w) * pred1 m c (ix5 b (chan o) ⟨k, hk⟩ h w) := by
  have hk' : k < cfg0.N := lt_of_lt_of_eq hk (show cfg0.N = 48 from N_0).symm
  unfold M1
  rw [dif_pos hk']
  unfold rowSum
  refine (sum_rows _ _ _ _ b o w).trans ?_
  refine Finset.sum_congr rfl fun h _ => ?_
  unfold P1
  rw [prod1_apply, blk0_apply]
  rfl

theorem M2_apply (k : ℕ) (hk : k < 48) (b : Fin 2) (o : Fin 13) (w : Fin 256) :
    M2 m c k (ix3 b o w) = ∑ h : Fin 256, pred2 m c (ix5 b (chan o) ⟨k, hk⟩ h w) * hot (labels m c (ix4 b ⟨k, hk⟩ h w)) o := by
  have hk' : k < cfg0.N := lt_of_lt_of_eq hk (show cfg0.N = 48 from N_0).symm
  unfold M2
  rw [dif_pos hk']
  unfold rowSum
  refine (sum_rows _ _ _ _ b o w).trans ?_
  refine Finset.sum_congr rfl fun h _ => ?_
  unfold P2
  rw [prod2_apply, blk1_apply, blk2_apply]
  rfl

theorem M3_apply (k : ℕ) (hk : k < 48) (b : Fin 2) (o : Fin 13) (w : Fin 256) :
    M3 m c k (ix3 b o w) = ∑ h : Fin 256, pred2 m c (ix5 b (chan o) ⟨k, hk⟩ h w) * pred2 m c (ix5 b (chan o) ⟨k, hk⟩ h w) := by
  have hk' : k < cfg0.N := lt_of_lt_of_eq hk (show cfg0.N = 48 from N_0).symm
  unfold M3
  rw [dif_pos hk']
  unfold rowSum
  refine (sum_rows _ _ _ _ b o w).trans ?_
  refine Finset.sum_congr rfl fun h _ => ?_
  unfold P3
  rw [prod3_apply, blk1_apply]
  rfl

theorem M4_apply (k : ℕ) (hk : k < 48) (b : Fin 2) (o : Fin 13) (w : Fin 256) :
    M4 m c k (ix3 b o w) = ∑ h : Fin 256, hot (labels m c (ix4 b ⟨k, hk⟩ h w)) o := by
  have hk' : k < cfg0.N := lt_of_lt_of_eq hk (show cfg0.N = 48 from N_0).symm
  unfold M4
  rw [dif_pos hk']
  unfold rowSum
  refine (sum_rows _ _ _ _ b o w).trans ?_
  refine Finset.sum_congr rfl fun h _ => ?_
  unfold P4
  rw [prod4_apply, blk2_apply]
  rfl

end Cert.KernelIdeal.Sums

end
-- ==== Proof.RefAt.lean ====
/-
  The reference's five elementwise arrays read at an index over the extended reals.

  The reference forms, on the whole `[2,13,48,256,256]` index space (batch, organ, depth, row, lane): the
  predictions' channels 1…13, the one-hot array of the labels for classes 1…13, their products and the squares.
  At `(b, o, d, h, w)` they are `x (b, chan o, d, h, w)`, `hot (labels (b, d, h, w)) o` and the products of those:
  the same values the kernel's step at depth `d` forms at `(b, o, h, w)`. The organ number is written `1 + o` here
  and `o + 1` in the kernel; the 0/1 value of the comparison is read unsigned here and signed (after widening) there.
-/
import proofs.«128460_j80470507258049_2_alg».proof.Proof.Gen.ReferenceIdeal.Read
import proofs.«128460_j80470507258049_2_alg».proof.Proof.ProdAt

noncomputable section

open Idealize.ShloMosaic Idealize.ShloMosaic.ValueIdx

namespace Cert.ReferenceIdeal.RefAt

open Cert.ReferenceIdeal Cert.ReferenceIdeal.Gen Cert.ReferenceIdeal.Read
open Cert.KernelIdeal.PayAt (hot)
open Cert.KernelIdeal.ProdAt (chan)

/-- The channel slice: entry `(b, o, d, h, w)` is the prediction at `(b, chan o, d, h, w)`. -/
theorem v9_at (x0 : (⟨S2x14x48x256x256, .f32⟩ : BufTy).Contents (Elt Ideal)) (b : Fin 2) (o : Fin 13) (d : Fin 48) (h w : Fin 256) :
    val_main_v9 (F := Ideal) x0 (ix5 b o d h w) = x0 (ix5 b (chan o) d h w) := by
  rw [val_main_v9_apply]
  refine congrArg x0 (funext fun a => Fin.ext ?_)
  match a with
  | ⟨0, _⟩ => rfl
  | ⟨1, _⟩ => rfl
  | ⟨2, _⟩ => rfl
  | ⟨3, _⟩ => rfl
  | ⟨4, _⟩ => rfl

theorem v24_at (x1 : (⟨S2x14x48x256x256, .f32⟩ : BufTy).Contents (Elt Ideal)) (b : Fin 2) (o : Fin 13) (d : Fin 48) (h w : Fin 256) :
    val_main_v24 (F := Ideal) x1 (ix5 b o d h w) = x1 (ix5 b (chan o) d h w) := by
  rw [val_main_v24_apply]
  refine congrArg x1 (funext fun a => Fin.ext ?_)
  match a with
  | ⟨0, _⟩ => rfl
  | ⟨1, _⟩ => rfl
  | ⟨2, _⟩ => rfl
  | ⟨3, _⟩ => rfl
  | ⟨4, _⟩ => rfl

/-- The one-hot array: entry `(b, o, d, h, w)` is `hot` of the label at `(b, d, h, w)` for organ `o`. -/
theorem v8_at (x2 : (⟨S2x48x256x256, .i32⟩ : BufTy).Contents (Elt Ideal)) (b : Fin 2) (o : Fin 13) (d : Fin 48) (h w : Fin 256) :
    val_main_v8 (F := Ideal) x2 (ix5 b o d h w) = hot (x2 (ix4 b d h w)) o := by
  rw [val_main_v8_apply, val_main_v7_apply, val_main_v5_apply, val_main_v3_apply, val_main_v6_apply, val_main_v4_apply,
    val_main_v2_apply, val_main_v1_apply, val_main_c_apply, val_main_v0_apply]
  have e : idx_main_v3 (idx_main_v5 (ix5 b o d h w)) = ix4 b d h w := funext fun a => Fin.ext (by
    match a with
    | ⟨0, _⟩ => rfl
    | ⟨1, _⟩ => rfl
    | ⟨2, _⟩ => rfl
    | ⟨3, _⟩ => rfl)
  rw [e]
  unfold hot
  show (((IntOp.cmpi .eq (x2 (ix4 b d h w)) (1#32 + BitVec.ofNat 32 o.val)).toNat : ℝ) : EReal) = _
  rw [BitVec.add_comm]

theorem v10_at (x0 : (⟨S2x14x48x256x256, .f32⟩ : BufTy).Contents (Elt Ideal)) (x2 : (⟨S2x48x256x256, .i32⟩ : BufTy).Contents (Elt Ideal))
    (b : Fin 2) (o : Fin 13) (d : Fin 48) (h w : Fin 256) :
    val_main_v10 (F := Ideal) x0 x2 (ix5 b o d h w) = x0 (ix5 b (chan o) d h w) * hot (x2 (ix4 b d h w)) o := by
  rw [val_main_v10_apply, v9_at, v8_at]; rfl

theorem v12_at (x0 : (⟨S2x14x48x256x256, .f32⟩ : BufTy).Contents (Elt Ideal))
    (b : Fin 2) (o : Fin 13) (d : Fin 48) (h w : Fin 256) :
    val_main_v12 (F := Ideal) x0 (ix5 b o d h w) = x0 (ix5 b (chan o) d h w) * x0 (ix5 b (chan o) d h w) := by
  rw [val_main_v12_apply, v9_at]; rfl

theorem v25_at (x1 : (⟨S2x14x48x256x256, .f32⟩ : BufTy).Contents (Elt Ideal)) (x2 : (⟨S2x48x256x256, .i32⟩ : BufTy).Contents (Elt Ideal))
    (b : Fin 2) (o : Fin 13) (d : Fin 48) (h w : Fin 256) :
    val_main_v25 (F := Ideal) x1 x2 (ix5 b o d h w) = x1 (ix5 b (chan o) d h w) * hot (x2 (ix4 b d h w)) o := by
  rw [val_main_v25_apply, v24_at, v8_at]; rfl

theorem v27_at (x1 : (⟨S2x14x48x256x256, .f32⟩ : BufTy).Contents (Elt Ideal))
    (b : Fin 2) (o : Fin 13) (d : Fin 48) (h w : Fin 256) :
    val_main_v27 (F := Ideal) x1 (ix5 b o d h w) = x1 (ix5 b (chan o) d h w) * x1 (ix5 b (chan o) d h w) := by
  rw [val_main_v27_apply, v24_at]; rfl

end Cert.ReferenceIdeal.RefAt

end
-- ==== Proof.RefSum.lean ====
/-
  The reference's sum over depth, rows and lanes, read at an index over the extended reals.

  The host's reduction of a `[2,13,48,256,256]` array along its last three axes gives, at `(b, o)`, the initial value
  plus the sum of the array over the indices whose first two coordinates are `(b, o)`. Those indices are exactly
  `(b, o, d, h, w)` for `d < 48`, `h, w < 256`, one for each triple, so the sum is the triple sum over `d`, `h`, `w`.
-/
import proofs.«128460_j80470507258049_2_alg».proof.Proof.Gen.ReferenceIdeal.Read
import Idealize.ShloMosaic.Lib.ValueIdx
import Idealize.ShloMosaic.PureOps.Ideal.Laws

noncomputable section
open Idealize.ShloMosaic Idealize.ShloMosaic.ValueIdx

namespace Cert.ReferenceIdeal.RefSum
open Cert.ReferenceIdeal

/-- The indices of the five-axis array with leading coordinates `j`, one per (d, h, w). -/
def emb5 (j : S2x13.Idx) : (Fin 48 × Fin 256 × Fin 256) ↪ S2x13x48x256x256.Idx :=
  ⟨fun p => ix5 (j 0) (j 1) p.1 p.2.1 p.2.2, fun p q h => by
     have h2 : p.1 = q.1 := congrFun h 2
     have h3 : p.2.1 = q.2.1 := congrFun h 3
     have h4 : p.2.2 = q.2.2 := congrFun h 4
     exact Prod.ext h2 (Prod.ext h3 h4)⟩

theorem filter_drop5 (hr : S2x13x48x256x256.ReducesTo [2, 3, 4] S2x13) (j : S2x13.Idx) :
    Finset.univ.filter (fun i : S2x13x48x256x256.Idx => hr.drop i = j)
      = Finset.univ.map (emb5 j) := by
  ext i
  simp only [Finset.mem_filter, Finset.mem_univ, true_and, Finset.mem_map, emb5, Function.Embedding.coeFn_mk]
  constructor
  · intro h
    refine ⟨(i 2, i 3, i 4), ?_⟩
    subst h
    funext a
    match a with
    | ⟨0, _⟩ => rfl
    | ⟨1, _⟩ => rfl
    | ⟨2, _⟩ => rfl
    | ⟨3, _⟩ => rfl
    | ⟨4, _⟩ => rfl
  · rintro ⟨p, rfl⟩
    funext b
    match b with
    | ⟨0, _⟩ => rfl
    | ⟨1, _⟩ => rfl

theorem reduce3_apply (hr : S2x13x48x256x256.ReducesTo [2, 3, 4] S2x13) (X : S2x13x48x256x256.Idx → EReal) (init : EReal) (j : S2x13.Idx) :
    Ideal.hostReduceAdd hr X init j
      = init + ∑ d : Fin 48, ∑ h : Fin 256, ∑ w : Fin 256, X (ix5 (j 0) (j 1) d h w) := by
  unfold Ideal.hostReduceAdd
  rw [filter_drop5 hr, Finset.sum_map, Fintype.sum_prod_type]
  refine congrArg (init + ·) (Finset.sum_congr rfl fun d _ => ?_)
  rw [Fintype.sum_prod_type]
  rfl

end Cert.ReferenceIdeal.RefSum
end
-- ==== Proof.Regroup.lean ====
/-
  Regrouping a sum over depth, rows and lanes.

  One side sums `X d h w` over all 48 depth slices `d`, 256 rows `h` and 256 lanes `w` at once. The other side splits
  the depth slices into two runs of 24 (slice `24·c + s` of run `c`), adds up, inside a run and lane by lane, the row
  sums `M (24·c + s) w = ∑_h X (24·c + s) h w` of the run's slices one slice after the other from zero, then sums over the
  lanes, then over the two runs. Addition of extended reals is commutative and associative, so the two agree; nothing
  here needs the summands to be finite.
-/
import Idealize.ShloMosaic.PureOps.Ideal

namespace Cert.Regroup

/-- Two runs of 24 consecutive naturals are the first 48. -/
theorem sum_two_runs (T : ℕ → EReal) :
    ∑ c : Fin 2, ∑ s ∈ Finset.range 24, T (24 * c.val + s) = ∑ d : Fin 48, T d.val := by
  rw [Fin.sum_univ_two, Fin.sum_univ_eq_sum_range (fun n => T n) 48, show (48 : ℕ) = 24 + 24 from rfl, Finset.sum_range_add]
  simp

/-- The nested sums by run, lane, slice of the run and row are the sum over slice, row and lane; `z` is the zero each
    partial sum starts from. -/
theorem regroup (X : Fin 48 → Fin 256 → Fin 256 → EReal) (M : ℕ → Fin 256 → EReal) (z : EReal) (hz : z = 0)
    (hM : ∀ (n : ℕ) (hn : n < 48) (w : Fin 256), M n w = ∑ h : Fin 256, X ⟨n, hn⟩ h w) :
    z + ∑ c : Fin 2, ∑ w : Fin 256, (z + ∑ s ∈ Finset.range 24, M (24 * c.val + s) w)
      = z + ∑ d : Fin 48, ∑ h : Fin 256, ∑ w : Fin 256, X d h w := by
  subst hz
  simp only [zero_add]
  have e : ∀ c : Fin 2, ∑ w : Fin 256, ∑ s ∈ Finset.range 24, M (24 * c.val + s) w
      = ∑ s ∈ Finset.range 24, (fun n => ∑ w : Fin 256, M n w) (24 * c.val + s) := fun c => Finset.sum_comm
  rw [Finset.sum_congr rfl fun c _ => e c]
  refine (sum_two_runs fun n => ∑ w : Fin 256, M n w).trans ?_
  refine Finset.sum_congr rfl fun d _ => ?_
  show ∑ w : Fin 256, M d.val w = _
  rw [Finset.sum_comm]
  exact Finset.sum_congr rfl fun w _ => hM d.val d.isLt w

end Cert.Regroup
-- ==== Proof.Bridge.lean ====
/-
  The five `[2,13]` arrays of sums agree.

  For each of the five kinds of summand `X (b, o, d, h, w)` (prediction × one-hot, prediction squared, for either
  prediction array, and the one-hot value alone): the reference sums `X` over depth, rows and lanes at once; the
  kernel's program sums, for each of the two cores, over the lanes, the per-lane totals its 24 steps accumulated from
  the row sums of their depth slices, and then adds the two cores. By `regroup` these are the same extended real.
-/
import proofs.«128460_j80470507258049_2_alg».proof.Proof.Sums
import proofs.«128460_j80470507258049_2_alg».proof.Proof.RefAt
import proofs.«128460_j80470507258049_2_alg».proof.Proof.RefSum
import proofs.«128460_j80470507258049_2_alg».proof.Proof.Regroup
import proofs.«128460_j80470507258049_2_alg».proof.Proof.Tail

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.PayAt Cert.KernelIdeal.ProdAt Cert.KernelIdeal.Final
open Cert.KernelIdeal.Sums Cert.KernelIdeal.Tail
open Cert.ReferenceIdeal.Read Cert.ReferenceIdeal.RefAt Cert.ReferenceIdeal.RefSum

variable (m : (ℓ : Loc nD τ sig) → Buf (Elt Ideal) ℓ) (c : Dev nD)

/-- The sum over the two cores at `(b, o)`: the zero plus the entries `(q, b, o)`. -/
theorem coreSum_apply (G : FVec Ideal S2x2x13 .f32) (b : Fin 2) (o : Fin 13) :
    coreSum G (ix2 b o) = z0 + ∑ q : Fin 2, G (ix3 q b o) := by
  unfold coreSum
  simp only [Host.reduceAdd, Ideal.hostReduceAdd_def]
  rw [Ideal.hostReduceAdd_single reducesTo_S2x2x13_S2x13_d0 (by decide)]
  refine congrArg (_ + ·) (Finset.sum_congr rfl fun q _ => ?_)
  exact congrArg G (funext fun a => Fin.ext (by match a with | ⟨0, _⟩ => rfl | ⟨1, _⟩ => rfl | ⟨2, _⟩ => rfl))

theorem sums0_eq :
    val_main_v11 (F := Ideal) (pred1 m c) (labels m c) = coreSum (G0 m c) := by
  funext i
  obtain ⟨b, o, rfl⟩ : ∃ (b : Fin 2) (o : Fin 13), i = ix2 b o := ⟨i 0, i 1, eq_ix2 i⟩
  have hL : val_main_v11 (F := Ideal) (pred1 m c) (labels m c) (ix2 b o)
      = z0 + ∑ d : Fin 48, ∑ h : Fin 256, ∑ w : Fin 256, pred1 m c (ix5 b (chan o) d h w) * hot (labels m c (ix4 b d h w)) o := by
    unfold val_main_v11
    simp only [Host.reduceAdd, Ideal.hostReduceAdd_def]
    rw [reduce3_apply]
    refine congrArg (_ + ·) (Finset.sum_congr rfl fun d _ => Finset.sum_congr rfl fun h _ => Finset.sum_congr rfl fun w _ => ?_)
    exact v10_at _ _ b o d h w
  rw [hL, coreSum_apply]
  simp only [G0_apply]
  exact (Cert.Regroup.regroup (fun d h w => pred1 m c (ix5 b (chan o) d h w) * hot (labels m c (ix4 b d h w)) o)
    (fun n w => M0 m c n (ix3 b o w)) z0 Ideal.ofBits_zero_f32 (fun n hn w => M0_apply m c n hn b o w)).symm

theorem sums1_eq :
    val_main_v13 (F := Ideal) (pred1 m c) = coreSum (G1 m c) := by
  funext i
  obtain ⟨b, o, rfl⟩ : ∃ (b : Fin 2) (o : Fin 13), i = ix2 b o := ⟨i 0, i 1, eq_ix2 i⟩
  have hL : val_main_v13 (F := Ideal) (pred1 m c) (ix2 b o)
      = z0 + ∑ d : Fin 48, ∑ h : Fin 256, ∑ w : Fin 256, pred1 m c (ix5 b (chan o) d h w) * pred1 m c (ix5 b (chan o) d h w) := by
    unfold val_main_v13
    simp only [Host.reduceAdd, Ideal.hostReduceAdd_def]
    rw [reduce3_apply]
    refine congrArg (_ + ·) (Finset.sum_congr rfl fun d _ => Finset.sum_congr rfl fun h _ => Finset.sum_congr rfl fun w _ => ?_)
    exact v12_at _ b o d h w
  rw [hL, coreSum_apply]
  simp only [G1_apply]
  exact (Cert.Regroup.regroup (fun d h w => pred1 m c (ix5 b (chan o) d h w) * pred1 m c (ix5 b (chan o) d h w))
    (fun n w => M1 m c n (ix3 b o w)) z0 Ideal.ofBits_zero_f32 (fun n hn w => M1_apply m c n hn b o w)).symm

theorem sums2_eq :
    val_main_v26 (F := Ideal) (pred2 m c) (labels m c) = coreSum (G2 m c) := by
  funext i
  obtain ⟨b, o, rfl⟩ : ∃ (b : Fin 2) (o : Fin 13), i = ix2 b o := ⟨i 0, i 1, eq_ix2 i⟩
  have hL : val_main_v26 (F := Ideal) (pred2 m c) (labels m c) (ix2 b o)
      = z0 + ∑ d : Fin 48, ∑ h : Fin 256, ∑ w : Fin 256, pred2 m c (ix5 b (chan o) d h w) * hot (labels m c (ix4 b d h w)) o := by
    unfold val_main_v26
    simp only [Host.reduceAdd, Ideal.hostReduceAdd_def]
    rw [reduce3_apply]
    refine congrArg (_ + ·) (Finset.sum_congr rfl fun d _ => Finset.sum_congr rfl fun h _ => Finset.sum_congr rfl fun w _ => ?_)
    exact v25_at _ _ b o d h w
  rw [hL, coreSum_apply]
  simp only [G2_apply]
  exact (Cert.Regroup.regroup (fun d h w => pred2 m c (ix5 b (chan o) d h w) * hot (labels m c (ix4 b d h w)) o)
    (fun n w => M2 m c n (ix3 b o w)) z0 Ideal.ofBits_zero_f32 (fun n hn w => M2_apply m c n hn b o w)).symm

theorem sums3_eq :
    val_main_v28 (F := Ideal) (pred2 m c) = coreSum (G3 m c) := by
  funext i
  obtain ⟨b, o, rfl⟩ : ∃ (b : Fin 2) (o : Fin 13), i = ix2 b o := ⟨i 0, i 1, eq_ix2 i⟩
  have hL : val_main_v28 (F := Ideal) (pred2 m c) (ix2 b o)
      = z0 + ∑ d : Fin 48, ∑ h : Fin 256, ∑ w : Fin 256, pred2 m c (ix5 b (chan o) d h w) * pred2 m c (ix5 b (chan o) d h w) := by
    unfold val_main_v28
    simp only [Host.reduceAdd, Ideal.hostReduceAdd_def]
    rw [reduce3_apply]
    refine congrArg (_ + ·) (Finset.sum_congr rfl fun d _ => Finset.sum_congr rfl fun h _ => Finset.sum_congr rfl fun w _ => ?_)
    exact v27_at _ b o d h w
  rw [hL, coreSum_apply]
  simp only [G3_apply]
  exact (Cert.Regroup.regroup (fun d h w => pred2 m c (ix5 b (chan o) d h w) * pred2 m c (ix5 b (chan o) d h w))
    (fun n w => M3 m c n (ix3 b o w)) z0 Ideal.ofBits_zero_f32 (fun n hn w => M3_apply m c n hn b o w)).symm

theorem sums4_eq :
    val_main_v14 (F := Ideal) (labels m c) = coreSum (G4 m c) := by
  funext i
  obtain ⟨b, o, rfl⟩ : ∃ (b : Fin 2) (o : Fin 13), i = ix2 b o := ⟨i 0, i 1, eq_ix2 i⟩
  have hL : val_main_v14 (F := Ideal) (labels m c) (ix2 b o)
      = z0 + ∑ d : Fin 48, ∑ h : Fin 256, ∑ w : Fin 256, hot (labels m c (ix4 b d h w)) o := by
    unfold val_main_v14
    simp only [Host.reduceAdd, Ideal.hostReduceAdd_def]
    rw [reduce3_apply]
    refine congrArg (_ + ·) (Finset.sum_congr rfl fun d _ => Finset.sum_congr rfl fun h _ => Finset.sum_congr rfl fun w _ => ?_)
    exact v8_at _ b o d h w
  rw [hL, coreSum_apply]
  simp only [G4_apply]
  exact (Cert.Regroup.regroup (fun d h w => hot (labels m c (ix4 b d h w)) o)
    (fun n w => M4 m c n (ix3 b o w)) z0 Ideal.ofBits_zero_f32 (fun n hn w => M4_apply m c n hn b o w)).symm

end Cert.KernelIdeal.Bridge

end
-- ==== Proof.RefTail.lean ====
/-
  The reference's result is the dice arithmetic of its five arrays of sums.

  After its five reductions over depth, rows and lanes, the reference applies to them exactly the host operations
  `tail` names (the one-hot array's sums are computed twice, once per prediction array, from the same term).
-/
import proofs.«128460_j80470507258049_2_alg».proof.Proof.Tail
import proofs.«128460_j80470507258049_2_alg».proof.Proof.Gen.ReferenceIdeal.Read

noncomputable section

open Idealize.ShloMosaic

namespace Cert.ReferenceIdeal.RefTail

open Cert.ReferenceIdeal Cert.ReferenceIdeal.Gen Cert.ReferenceIdeal.Read

theorem val_eq_tail (x0 x1 : (⟨S2x14x48x256x256, .f32⟩ : BufTy).Contents (Elt Ideal)) (x2 : (⟨S2x48x256x256, .i32⟩ : BufTy).Contents (Elt Ideal)) :
    val_main_v43 (F := Ideal) x0 x1 x2
      = Cert.KernelIdeal.Tail.tail (val_main_v11 (F := Ideal) x0 x2) (val_main_v13 (F := Ideal) x0) (val_main_v26 (F := Ideal) x1 x2)
          (val_main_v28 (F := Ideal) x1) (val_main_v14 (F := Ideal) x2) := rfl

end Cert.ReferenceIdeal.RefTail

end
-- ==== Proof.Agree.lean ====
/-
  From memories that agree on the three argument arrays, the reference's result is the kernel program's result.

  The reference's result term is the dice arithmetic of its five arrays of sums (`RefTail`), the kernel program's is the
  same arithmetic of its five (`KTail`), and the five arrays agree one by one (`Bridge`).
-/
import proofs.«128460_j80470507258049_2_alg».proof.Proof.KTail
import proofs.«128460_j80470507258049_2_alg».proof.Proof.Bridge
import proofs.«128460_j80470507258049_2_alg».proof.Proof.RefTail

noncomputable section

open Idealize.ShloMosaic Idealize.SL.Sem

namespace Cert.Proof.Agree

theorem results_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.res_main_v43 m' c = Cert.KernelIdeal.KTail.result m c := by
  refine (Cert.ReferenceIdeal.Read.val_main_v43_eq m' c).trans ?_
  rw [h0, h1, h2]
  refine (Cert.ReferenceIdeal.RefTail.val_eq_tail _ _ _).trans ?_
  exact congr (congr (congr (congr (congrArg Cert.KernelIdeal.Tail.tail (Cert.KernelIdeal.Bridge.sums0_eq m c))
    (Cert.KernelIdeal.Bridge.sums1_eq m c)) (Cert.KernelIdeal.Bridge.sums2_eq m c)) (Cert.KernelIdeal.Bridge.sums3_eq m c))
    (Cert.KernelIdeal.Bridge.sums4_eq m c)

end Cert.Proof.Agree

end
-- ==== Proof.lean ====
/-
  The certificate of the dice-loss kernel against its jnp reference.

  The kernel streams the two prediction arrays `[2,14,48,256,256]` and the label array `[2,48,256,256]` once, one
  depth slice per grid point on a `2 × 24` grid (core, step). For each batch `b` and organ `o` (class and channel
  `o + 1`) it accumulates five sums over depth, rows and lanes: prediction × one-hot and prediction squared for each
  prediction array, and the one-hot value. Each core keeps per-lane accumulators over its 24 depth slices (summing each
  slice over its rows), sums them over the lanes at its last step, and the host adds the two cores. The reference takes
  each of the five sums over the three axes at once. Both then apply the same dice arithmetic,
  `mean_b (2 − mean_o 2A/(B+E+ε) − mean_o 2C/(D+E+ε))`, with the same literals.

  Over the extended reals addition is commutative and associative, so the kernel's grouping of each sum (by core, lane,
  step, row) and the reference's (all at once) give the same value whatever the inputs are: the precondition is not used.
  The two one-hot spellings (a 0/1 comparison read signed after widening, or unsigned) are the same 0 or 1.

  Modules: `Step`, `PayAt`, `ProdAt` (a step's arithmetic), `Pieces`, `Accum` (what the buffers hold after each
  point), `Blocks`, `Final`, `Sums` (the output arrays as functions of the arguments), `Tail`, `KTail`, `KRun` (the kernel
  program's result), `RefSum`, `RefAt`, `RefTail` (the reference's result), `Regroup`, `Bridge`, `Agree` (the two agree). `FramePK`, `FramePDefs`, `FramePRun` are copies of the generated frame modules.
-/
import proofs.«128460_j80470507258049_2_alg».proof.Defs
import proofs.«128460_j80470507258049_2_alg».proof.Proof.Gen.Kernel
import proofs.«128460_j80470507258049_2_alg».proof.Proof.Gen.Kernel.Skeleton
import proofs.«128460_j80470507258049_2_alg».proof.Proof.Gen.Kernel.Launch
import proofs.«128460_j80470507258049_2_alg».proof.Proof.Gen.Kernel.Points
import proofs.«128460_j80470507258049_2_alg».proof.Proof.FramePK
import proofs.«128460_j80470507258049_2_alg».proof.Proof.Gen.KernelIdeal
import proofs.«128460_j80470507258049_2_alg».proof.Proof.Gen.KernelIdeal.Skeleton
import proofs.«128460_j80470507258049_2_alg».proof.Proof.Gen.KernelIdeal.Launch
import proofs.«128460_j80470507258049_2_alg».proof.Proof.Gen.KernelIdeal.Points
import proofs.«128460_j80470507258049_2_alg».proof.Proof.FramePRun
import proofs.«128460_j80470507258049_2_alg».proof.Proof.Gen.ReferenceIdeal
import proofs.«128460_j80470507258049_2_alg».proof.Proof.Gen.ReferenceIdeal.Run
import proofs.«128460_j80470507258049_2_alg».proof.Proof.Gen.ReferenceIdeal.Read
import proofs.«128460_j80470507258049_2_alg».proof.Proof.Gen.Pre_finite_inputs
import proofs.«128460_j80470507258049_2_alg».proof.Proof.KRun
import proofs.«128460_j80470507258049_2_alg».proof.Proof.Agree
import Idealize.ShloMosaic.Adequacy
import Idealize.ShloMosaic.Init

noncomputable section

namespace Cert.Proof

open Idealize.ShloMosaic Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the dice arithmetic of five arrays of sums, and the five arrays agree. -/
theorem algebraic : Cert.algebraic_KernelIdeal_ReferenceIdeal := by
  intro m ρ m' ρ' _ hagree
  refine ⟨fun c => Cert.KernelIdeal.KTail.result m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  exact Cert.Proof.Agree.results_agree m m' c (hagree c).1 (hagree c).2.1 (hagree c).2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
